-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304x4 : Shape := ⟨2, ![4194304, 4]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S4194304x4 : S_.BroadcastsInDim S4194304x4 (![] : Fin 0 → Fin S4194304x4.rank)
  reducesTo_S4194304x4_S_d0_1 : S4194304x4.ReducesTo [0, 1] S_

variable [Facts]

def fn {F : FTy → Type} [FloatOps F] (main_arg0 : FVec F S4194304x2 .f32) (main_arg1 : FVec F S4194304x4 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  main_v8
-- ==== Kernel.lean ====
abbrev S4194304x2 : Shape := ⟨2, ![4194304, 2]⟩
abbrev S4194304x4 : Shape := ⟨2, ![4194304, 4]⟩
abbrev S262144x2 : Shape := ⟨2, ![262144, 2]⟩
abbrev S262144x4 : Shape := ⟨2, ![262144, 4]⟩
abbrev S262144x1 : Shape := ⟨2, ![262144, 1]⟩
abbrev S262144 : Shape := ⟨1, ![262144]⟩

abbrev nBuf : Space → Nat
  | .hbm => 3
  | .vmem => 6
  | .smem => 0
  | _ => 0

abbrev bufTy : (tb : Table) → Fin (tcTables nBuf tb) → BufTy
  | .hbm, ⟨0, _⟩ => ⟨S4194304x2, .f32⟩
  | .hbm, ⟨1, _⟩ => ⟨S4194304x4, .f32⟩
  | .hbm, ⟨2, _⟩ => ⟨S4194304x2, .f32⟩
  | .local _ .vmem, ⟨0, _⟩ => ⟨S262144x2, .f32⟩
  | .local _ .vmem, ⟨1, _⟩ => ⟨S262144x2, .f32⟩
  | .local _ .vmem, ⟨2, _⟩ => ⟨S262144x4, .f32⟩
  | .local _ .vmem, ⟨3, _⟩ => ⟨S262144x4, .f32⟩
  | .local _ .vmem, ⟨4, _⟩ => ⟨S262144x2, .f32⟩
  | .local _ .vmem, ⟨5, _⟩ => ⟨S262144x2, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S262144x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S262144x2_S262144x2_0_0 : ∀ a, (![0, 0] : Fin 2 → Nat) a + S262144x2.size a ≤ S262144x2.size a
  h_S262144x2 : 0 < S262144x2.numel
  inb_S262144x4_S262144x4_0_0 : ∀ a, (![0, 0] : Fin 2 → Nat) a + S262144x4.size a ≤ S262144x4.size a
  h_S262144x4 : 0 < S262144x4.numel
  slices_S262144x2_o0_0_S262144x1 : S262144x2.Slices ![0, 0] S262144x1
  shapeCasts_S262144x1_S262144 : S262144x1.ShapeCasts S262144
  slices_S262144x2_o0_1_S262144x1 : S262144x2.Slices ![0, 1] S262144x1
  slices_S262144x4_o0_0_S262144x1 : S262144x4.Slices ![0, 0] S262144x1
  slices_S262144x4_o0_1_S262144x1 : S262144x4.Slices ![0, 1] S262144x1
  slices_S262144x4_o0_2_S262144x1 : S262144x4.Slices ![0, 2] S262144x1
  slices_S262144x4_o0_3_S262144x1 : S262144x4.Slices ![0, 3] S262144x1
  shapeCasts_S262144_S262144x1 : S262144.ShapeCasts S262144x1
  concatenates_S262144x1_S262144x1_S262144x2_d1 : Shape.Concatenates [S262144x1, S262144x1] S262144x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x2.size a ≤ S4194304x2.size a
  hwx0_0 : ∀ i : grid0.Coords, EltTy.bits .f32 = 32 ∨ (Rect.block (s := S4194304x2) S262144x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x4.size a ≤ S4194304x4.size a
  hwx0_1 : ∀ i : grid0.Coords, EltTy.bits .f32 = 32 ∨ (Rect.block (s := S4194304x4) S262144x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144x2.size a ≤ S4194304x2.size a
  hwx0_2 : ∀ i : grid0.Coords, EltTy.bits .f32 = 32 ∨ (Rect.block (s := S4194304x2) S262144x2.size (cc0_transform_2 i) (hinb0_2 i)).WholeWords (EltTy.packing .f32)

variable [Facts₀]

abbrev win0_0 : Pipeline.Window sig grid0 :=
  Pipeline.Window.ofSpec (Memref.whole main_arg0) S262144x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S262144x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S4194304x4 : Shape := ⟨2, ![4194304, 4]⟩
abbrev S4194304x1 : Shape := ⟨2, ![4194304, 1]⟩
abbrev S4194304 : Shape := ⟨1, ![4194304]⟩
abbrev S_ : Shape := ⟨0, ![]⟩
abbrev S4194304x1x2 : Shape := ⟨3, ![4194304, 1, 2]⟩
abbrev S4194304x2x2 : Shape := ⟨3, ![4194304, 2, 2]⟩
abbrev S4194304x1x1 : Shape := ⟨3, ![4194304, 1, 1]⟩
abbrev S4194304x2x1 : Shape := ⟨3, ![4194304, 2, 1]⟩

abbrev nBuf : Space → Nat
  | .hbm => 122
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S4194304x4, .f32⟩
  | .hbm, ⟨2, _⟩ => ⟨S4194304x1, .f32⟩
  | .hbm, ⟨3, _⟩ => ⟨S4194304, .f32⟩
  | .hbm, ⟨4, _⟩ => ⟨S4194304x1, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304, .f32⟩
  | .hbm, ⟨12, _⟩ => ⟨S_, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S_, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304x1, .f32⟩
  | .hbm, ⟨31, _⟩ => ⟨S4194304x1, .f32⟩
  | .hbm, ⟨32, _⟩ => ⟨S4194304x2, .f32⟩
  | .hbm, ⟨33, _⟩ => ⟨S4194304, .f32⟩
  | .hbm, ⟨34, _⟩ => ⟨S4194304, .f32⟩
  | .hbm, ⟨35, _⟩ => ⟨S4194304x1, .f32⟩
  | .hbm, ⟨36, _⟩ => ⟨S4194304x1, .f32⟩
  | .hbm, ⟨37, _⟩ => ⟨S4194304x2, .f32⟩
  | .hbm, ⟨38, _⟩ => ⟨S4194304x1x2, .f32⟩
  | .hbm, ⟨39, _⟩ => ⟨S4194304x1x2, .f32⟩
  | .hbm, ⟨40, _⟩ => ⟨S4194304x2x2, .f32⟩
  | .hbm, ⟨41, _⟩ => ⟨S4194304x1x1, .f32⟩
  | .hbm, ⟨42, _⟩ => ⟨S4194304, .f32⟩
  | .hbm, ⟨43, _⟩ => ⟨S4194304x1x1, .f32⟩
  | .hbm, ⟨44, _⟩ => ⟨S4194304, .f32⟩
  | .hbm, ⟨45, _⟩ => ⟨S4194304x1, .f32⟩
  | .hbm, ⟨46, _⟩ => ⟨S4194304x1, .f32⟩
  | .hbm, ⟨47, _⟩ => ⟨S4194304x2, .f32⟩
  | .hbm, ⟨48, _⟩ => ⟨S4194304x1x1, .f32⟩
  | .hbm, ⟨49, _⟩ => ⟨S4194304, .f32⟩
  | .hbm, ⟨50, _⟩ => ⟨S4194304x1x1, .f32⟩
  | .hbm, ⟨51, _⟩ => ⟨S4194304, .f32⟩
  | .hbm, ⟨52, _⟩ => ⟨S4194304x1, .f32⟩
  | .hbm, ⟨53, _⟩ => ⟨S4194304x1, .f32⟩
  | .hbm, ⟨54, _⟩ => ⟨S4194304x2, .f32⟩
  | .hbm, ⟨55, _⟩ => ⟨S4194304x1x2, .f32⟩
  | .hbm, ⟨56, _⟩ => ⟨S4194304x1x2, .f32⟩
  | .hbm, ⟨57, _⟩ => ⟨S4194304x2x2, .f32⟩
  | .hbm, ⟨58, _⟩ => ⟨S4194304x1, .f32⟩
  | .hbm, ⟨59, _⟩ => ⟨S4194304, .f32⟩
  | .hbm, ⟨60, _⟩ => ⟨S_, .f32⟩
  | .hbm, ⟨61, _⟩ => ⟨S4194304, .f32⟩
  | .hbm, ⟨62, _⟩ => ⟨S4194304, .f32⟩
  | .hbm, ⟨63, _⟩ => ⟨S4194304, .f32⟩
  | .hbm, ⟨64, _⟩ => ⟨S_, .f32⟩
  | .hbm, ⟨65, _⟩ => ⟨S4194304, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304x1, .f32⟩
  | .hbm, ⟨70, _⟩ => ⟨S4194304x1, .f32⟩
  | .hbm, ⟨71, _⟩ => ⟨S4194304x2, .f32⟩
  | .hbm, ⟨72, _⟩ => ⟨S4194304x1, .f32⟩
  | .hbm, ⟨73, _⟩ => ⟨S4194304x1, .f32⟩
  | .hbm, ⟨74, _⟩ => ⟨S4194304x2, .f32⟩
  | .hbm, ⟨75, _⟩ => ⟨S4194304x1x2, .f32⟩
  | .hbm, ⟨76, _⟩ => ⟨S4194304x1x2, .f32⟩
  | .hbm, ⟨77, _⟩ => ⟨S4194304x2x2, .f32⟩
  | .hbm, ⟨78, _⟩ => ⟨S4194304x1, .f32⟩
  | .hbm, ⟨79, _⟩ => ⟨S4194304, .f32⟩
  | .hbm, ⟨80, _⟩ => ⟨S_, .f32⟩
  | .hbm, ⟨81, _⟩ => ⟨S4194304, .f32⟩
  | .hbm, ⟨82, _⟩ => ⟨S4194304, .f32⟩
  | .hbm, ⟨83, _⟩ => ⟨S4194304, .f32⟩
  | .hbm, ⟨84, _⟩ => ⟨S_, .f32⟩
  | .hbm, ⟨85, _⟩ => ⟨S4194304, .f32⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304x1, .f32⟩
  | .hbm, ⟨90, _⟩ => ⟨S4194304x1, .f32⟩
  | .hbm, ⟨91, _⟩ => ⟨S4194304x2, .f32⟩
  | .hbm, ⟨92, _⟩ => ⟨S4194304x1, .f32⟩
  | .hbm, ⟨93, _⟩ => ⟨S4194304x1, .f32⟩
  | .hbm, ⟨94, _⟩ => ⟨S4194304x2, .f32⟩
  | .hbm, ⟨95, _⟩ => ⟨S4194304x1x2, .f32⟩
  | .hbm, ⟨96, _⟩ => ⟨S4194304x1x2, .f32⟩
  | .hbm, ⟨97, _⟩ => ⟨S4194304x2x2, .f32⟩
  | .hbm, ⟨98, _⟩ => ⟨S4194304x2x2, .f32⟩
  | .hbm, ⟨99, _⟩ => ⟨S4194304x2x2, .f32⟩
  | .hbm, ⟨100, _⟩ => ⟨S4194304x2x2, .f32⟩
  | .hbm, ⟨101, _⟩ => ⟨S4194304x2x1, .f32⟩
  | .hbm, ⟨102, _⟩ => ⟨S4194304x2, .f32⟩
  | .hbm, ⟨103, _⟩ => ⟨S_, .f32⟩
  | .hbm, ⟨104, _⟩ => ⟨S4194304, .f32⟩
  | .hbm, ⟨105, _⟩ => ⟨S4194304x2x1, .f32⟩
  | .hbm, ⟨106, _⟩ => ⟨S4194304x2, .f32⟩
  | .hbm, ⟨107, _⟩ => ⟨S_, .f32⟩
  | .hbm, ⟨108, _⟩ => ⟨S4194304, .f32⟩
  | .hbm, ⟨109, _⟩ => ⟨S4194304, .f32⟩
  | .hbm, ⟨110, _⟩ => ⟨S4194304x1x2, .f32⟩
  | .hbm, ⟨111, _⟩ => ⟨S4194304x2, .f32⟩
  | .hbm, ⟨112, _⟩ => ⟨S_, .f32⟩
  | .hbm, ⟨113, _⟩ => ⟨S4194304, .f32⟩
  | .hbm, ⟨114, _⟩ => ⟨S4194304x1x2, .f32⟩
  | .hbm, ⟨115, _⟩ => ⟨S4194304x2, .f32⟩
  | .hbm, ⟨116, _⟩ => ⟨S_, .f32⟩
  | .hbm, ⟨117, _⟩ => ⟨S4194304, .f32⟩
  | .hbm, ⟨118, _⟩ => ⟨S4194304, .f32⟩
  | .hbm, ⟨119, _⟩ => ⟨S4194304x1, .f32⟩
  | .hbm, ⟨120, _⟩ => ⟨S4194304x1, .f32⟩
  | .hbm, ⟨121, _⟩ => ⟨S4194304x2, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_3 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_4 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_5 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_6 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_7 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_8 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_9 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_10 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩

abbrev nD : Nat := 1
abbrev τ : Topo := Topo.v7x

variable {F : FTy → Type} [FloatOps F]

class Facts₀ : Prop where
  slices_S4194304x2_S4194304x1_0_0 : S4194304x2.Slices ![0, 0] S4194304x1
  shapeCasts_S4194304x1_S4194304 : S4194304x1.ShapeCasts S4194304
  slices_S4194304x4_S4194304x1_0_0 : S4194304x4.Slices ![0, 0] S4194304x1
  slices_S4194304x2_S4194304x1_0_1 : S4194304x2.Slices ![0, 1] S4194304x1
  slices_S4194304x4_S4194304x1_0_1 : S4194304x4.Slices ![0, 1] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S4194304x2_S4194304x1x2_0_2 : S4194304x2.BroadcastsInDim S4194304x1x2 (![0, 2] : Fin 2 → Fin S4194304x1x2.rank)
  concatenates_S4194304x1x2_S4194304x1x2_S4194304x2x2_d1 : Shape.Concatenates [S4194304x1x2, S4194304x1x2] S4194304x2x2 1
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_1_1 : S4194304x2x2.Slices ![0, 1, 1] S4194304x1x1
  slices_S4194304x2x2_S4194304x1x1_0_1_0 : S4194304x2x2.Slices ![0, 1, 0] S4194304x1x1
  slices_S4194304x2x2_S4194304x1x1_0_0_1 : S4194304x2x2.Slices ![0, 0, 1] S4194304x1x1
  slices_S4194304x4_S4194304x1_0_2 : S4194304x4.Slices ![0, 2] S4194304x1
  slices_S4194304x4_S4194304x1_0_3 : S4194304x4.Slices ![0, 3] S4194304x1
  slices_S4194304x2x2_S4194304x2x1_0_0_0 : S4194304x2x2.Slices ![0, 0, 0] S4194304x2x1
  shapeCasts_S4194304x2x1_S4194304x2 : S4194304x2x1.ShapeCasts S4194304x2
  reducesTo_S4194304x2_S4194304_d1 : S4194304x2.ReducesTo [1] S4194304
  h_S_ : 0 < S_.numel
  slices_S4194304x2x2_S4194304x2x1_0_0_1 : S4194304x2x2.Slices ![0, 0, 1] S4194304x2x1
  slices_S4194304x2x2_S4194304x1x2_0_0_0 : S4194304x2x2.Slices ![0, 0, 0] S4194304x1x2
  shapeCasts_S4194304x1x2_S4194304x2 : S4194304x1x2.ShapeCasts S4194304x2
  slices_S4194304x2x2_S4194304x1x2_0_1_0 : S4194304x2x2.Slices ![0, 1, 0] S4194304x1x2
  dot_S4194304x2x2_S4194304x2x2_S4194304x2x2_2_2_1_1_0_0_wf : DotDims.WF S4194304x2x2 S4194304x2x2 S4194304x2x2 [2] [2] [1] [1] [0] [0]
  dot_S4194304x2x2_S4194304x2x2_S4194304x2x2_2_1_1_2_0_0_wf : DotDims.WF S4194304x2x2 S4194304x2x2 S4194304x2x2 [2] [1] [1] [2] [0] [0]

variable [Facts₀]

def dot_S4194304x2x2_S4194304x2x2_S4194304x2x2_2_2_1_1_0_0 : DotDims S4194304x2x2 S4194304x2x2 S4194304x2x2 where
  lhsContracting := [2]
  rhsContracting := [2]
  lhsNonContracting := [1]
  rhsNonContracting := [1]
  lhsBatch := [0]
  rhsBatch := [0]
  wf := dot_S4194304x2x2_S4194304x2x2_S4194304x2x2_2_2_1_1_0_0_wf
def dot_S4194304x2x2_S4194304x2x2_S4194304x2x2_2_1_1_2_0_0 : DotDims S4194304x2x2 S4194304x2x2 S4194304x2x2 where
  lhsContracting := [2]
  rhsContracting := [1]
  lhsNonContracting := [1]
  rhsNonContracting := [2]
  lhsBatch := [0]
  rhsBatch := [0]
  wf := dot_S4194304x2x2_S4194304x2x2_S4194304x2x2_2_1_1_2_0_0_wf

class Facts : Prop extends Facts₀ where

variable [Facts]
-- ==== Proof.LibRowLayout.lean ====
/-
  Small arrays with one long leading axis, read at an index by coordinates.

  A batch of `B` rows carries, per row, a scalar, a pair, or a 2×2 matrix.  The lemmas below say what each
  re-laying of such arrays holds at row `r`:
  * column `k` of a `[B, n]` array, cut out as `[B, 1]` and flattened to `[B]`, is the array's entry `(r, k)`;
  * a vector `[B]` re-laid as a column `[B, 1]` (by a shape cast or by a broadcast along axis 0) keeps entry `r`;
  * two columns `[B, 1]` set side by side give the pair `[B, 2]`: entry `(r, 0)` from the first, `(r, 1)` from the second;
  * a pair `[B, 2]` re-laid as one matrix row `[B, 1, 2]`, and two such rows stacked to `[B, 2, 2]`;
  * entry `(j, k)` of every row's matrix, cut out as `[B, 1, 1]` and flattened to `[B]`;
  * column `k` (resp. row `j`) of every row's matrix, cut out as `[B, 2, 1]` (resp. `[B, 1, 2]`) and flattened to `[B, 2]`.
  All are statements about indices only: they hold for any element type.
-/
import Idealize.ShloMosaic.Lib.Pipeline.Value
import Idealize.ShloMosaic.Lib.ValueIdx

namespace Cert.RowLayout

open Idealize.ShloMosaic Idealize.ShloMosaic.ValueIdx

variable {α : Type} {B : Nat}

/-- Column `k` of a `[B, n]` array, cut as a `[B, 1]` slice and flattened to `[B]`: at row `r` it is the entry `(r, k)`. -/
theorem column_apply {n : Nat} (k : Nat) (X : (⟨2, ![B, n]⟩ : Shape).Idx → α)
    (hs : (⟨2, ![B, n]⟩ : Shape).Slices ![0, k] ⟨2, ![B, 1]⟩)
    (hc : (⟨2, ![B, 1]⟩ : Shape).ShapeCasts ⟨1, ![B]⟩) (r : Fin B) (kk : Fin n) (hkk : kk.val = k) :
    shapeCast ⟨1, ![B]⟩ (extractStridedSlice ⟨2, ![B, 1]⟩ ![0, k] X hs) hc (ix1 r) = X (ix2 r kk) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply _ _ hs _ _ (fun a => ?_)
    match a with
    | ⟨0, _⟩ => show r.val = 0 + r.val; omega
    | ⟨1, _⟩ => show kk.val = k + 0; omega

/-- A vector `[B]` cast to a column `[B, 1]` keeps its entries. -/
theorem castColumn_apply (v : (⟨1, ![B]⟩ : Shape).Idx → α)
    (hc : (⟨1, ![B]⟩ : Shape).ShapeCasts ⟨2, ![B, 1]⟩) (r : Fin B) :
    shapeCast ⟨2, ![B, 1]⟩ v hc (ix2 r (0 : Fin 1)) = v (ix1 r) := by
  refine shapeCast_apply _ hc _ _ ?_
  rw [Shape.rowMajor_val_two, Shape.rowMajor_val_one]
  show r.val = r.val * 1 + 0
  omega

/-- A vector `[B]` broadcast along axis 0 to a column `[B, 1]` keeps its entries. -/
theorem bcastColumn_apply (v : (⟨1, ![B]⟩ : Shape).Idx → α)
    (hb : (⟨1, ![B]⟩ : Shape).BroadcastsInDim ⟨2, ![B, 1]⟩ ![0]) (r : Fin B) :
    broadcastInDim ⟨2, ![B, 1]⟩ ![0] hb v (ix2 r (0 : Fin 1)) = v (ix1 r) := by
  refine broadcastInDim_apply _ hb v _ _ (fun a => ?_)
  match a with
  | ⟨0, _⟩ =>
    show r.val = if B = 1 then 0 else r.val
    split
    · have := r.isLt; omega
    · rfl

/-- Two columns side by side: the pair's first entry is the first column's. -/
theorem pair_apply_zero (a b : (⟨2, ![B, 1]⟩ : Shape).Idx → α)
    (h : Shape.Concatenates [(⟨2, ![B, 1]⟩ : Shape), ⟨2, ![B, 1]⟩] ⟨2, ![B, 2]⟩ 1) (r : Fin B) :
    concatenate ⟨2, ![B, 2]⟩ 1 [⟨⟨2, ![B, 1]⟩, a⟩, ⟨⟨2, ![B, 1]⟩, b⟩] h (ix2 r (0 : Fin 2)) = a (ix2 r (0 : Fin 1)) := by
  refine concatenate_pair_apply_left 1 a b h _ rfl _ (fun c => ?_)
  match c with
  | ⟨0, _⟩ => rfl
  | ⟨1, _⟩ => rfl

/-- Two columns side by side: the pair's second entry is the second column's. -/
theorem pair_apply_one (a b : (⟨2, ![B, 1]⟩ : Shape).Idx → α)
    (h : Shape.Concatenates [(⟨2, ![B, 1]⟩ : Shape), ⟨2, ![B, 1]⟩] ⟨2, ![B, 2]⟩ 1) (r : Fin B) :
    concatenate ⟨2, ![B, 2]⟩ 1 [⟨⟨2, ![B, 1]⟩, a⟩, ⟨⟨2, ![B, 1]⟩, b⟩] h (ix2 r (1 : Fin 2)) = b (ix2 r (0 : Fin 1)) := by
  refine concatenate_pair_apply_right 1 a b h _ rfl rfl _ (fun c hc => ?_) rfl
  match c with
  | ⟨0, _⟩ => rfl
  | ⟨1, _⟩ => exact absurd rfl hc

/-- A pair `[B, 2]` re-laid as one matrix row `[B, 1, 2]` keeps its entries. -/
theorem bcastRow_apply (M : (⟨2, ![B, 2]⟩ : Shape).Idx → α)
    (hb : (⟨2, ![B, 2]⟩ : Shape).BroadcastsInDim ⟨3, ![B, 1, 2]⟩ ![0, 2]) (r : Fin B) (k : Fin 2) :
    broadcastInDim ⟨3, ![B, 1, 2]⟩ ![0, 2] hb M (ix3 r (0 : Fin 1) k) = M (ix2 r k) := by
  refine broadcastInDim_apply _ hb M _ _ (fun a => ?_)
  match a with
  | ⟨0, _⟩ =>
    show r.val = if B = 1 then 0 else r.val
    split
    · have := r.isLt; omega
    · rfl
  | ⟨1, _⟩ => rfl

/-- Two matrix rows stacked: the matrix's row 0 is the first. -/
theorem rows_apply_zero (A A' : (⟨3, ![B, 1, 2]⟩ : Shape).Idx → α)
    (h : Shape.Concatenates [(⟨3, ![B, 1, 2]⟩ : Shape), ⟨3, ![B, 1, 2]⟩] ⟨3, ![B, 2, 2]⟩ 1) (r : Fin B) (k : Fin 2) :
    concatenate ⟨3, ![B, 2, 2]⟩ 1 [⟨⟨3, ![B, 1, 2]⟩, A⟩, ⟨⟨3, ![B, 1, 2]⟩, A'⟩] h (ix3 r (0 : Fin 2) k) = A (ix3 r (0 : Fin 1) k) := by
  refine concatenate_pair_apply_left 1 A A' h _ rfl _ (fun c => ?_)
  match c with
  | ⟨0, _⟩ => rfl
  | ⟨1, _⟩ => rfl
  | ⟨2, _⟩ => rfl

/-- Two matrix rows stacked: the matrix's row 1 is the second. -/
theorem rows_apply_one (A A' : (⟨3, ![B, 1, 2]⟩ : Shape).Idx → α)
    (h : Shape.Concatenates [(⟨3, ![B, 1, 2]⟩ : Shape), ⟨3, ![B, 1, 2]⟩] ⟨3, ![B, 2, 2]⟩ 1) (r : Fin B) (k : Fin 2) :
    concatenate ⟨3, ![B, 2, 2]⟩ 1 [⟨⟨3, ![B, 1, 2]⟩, A⟩, ⟨⟨3, ![B, 1, 2]⟩, A'⟩] h (ix3 r (1 : Fin 2) k) = A' (ix3 r (0 : Fin 1) k) := by
  refine concatenate_pair_apply_right 1 A A' h _ rfl rfl _ (fun c hc => ?_) rfl
  match c with
  | ⟨0, _⟩ => rfl
  | ⟨1, _⟩ => exact absurd rfl hc
  | ⟨2, _⟩ => rfl

/-- Entry `(j, k)` of every row's matrix, cut as `[B, 1, 1]` and flattened to `[B]`. -/
theorem entry_apply (j k : Nat) (M : (⟨3, ![B, 2, 2]⟩ : Shape).Idx → α)
    (hs : (⟨3, ![B, 2, 2]⟩ : Shape).Slices ![0, j, k] ⟨3, ![B, 1, 1]⟩)
    (hc : (⟨3, ![B, 1, 1]⟩ : Shape).ShapeCasts ⟨1, ![B]⟩) (r : Fin B) (jj kk : Fin 2) (hjj : jj.val = j) (hkk : kk.val = k) :
    shapeCast ⟨1, ![B]⟩ (extractStridedSlice ⟨3, ![B, 1, 1]⟩ ![0, j, k] M hs) hc (ix1 r) = M (ix3 r jj kk) := by
  refine (shapeCast_apply _ hc (ix1 r) (ix3 r (0 : Fin 1) (0 : Fin 1)) ?_).trans ?_
  · rw [Shape.rowMajor_val_three, Shape.rowMajor_val_one]
    show (r.val * 1 + 0) * 1 + 0 = r.val
    omega
  · refine extractStridedSlice_apply _ _ hs _ _ (fun a => ?_)
    match a with
    | ⟨0, _⟩ => show r.val = 0 + r.val; omega
    | ⟨1, _⟩ => show jj.val = j + 0; omega
    | ⟨2, _⟩ => show kk.val = k + 0; omega

/-- Column `k` of every row's matrix, cut as `[B, 2, 1]` and flattened to `[B, 2]`. -/
theorem matColumn_apply (k : Nat) (M : (⟨3, ![B, 2, 2]⟩ : Shape).Idx → α)
    (hs : (⟨3, ![B, 2, 2]⟩ : Shape).Slices ![0, 0, k] ⟨3, ![B, 2, 1]⟩)
    (hc : (⟨3, ![B, 2, 1]⟩ : Shape).ShapeCasts ⟨2, ![B, 2]⟩) (r : Fin B) (j kk : Fin 2) (hkk : kk.val = k) :
    shapeCast ⟨2, ![B, 2]⟩ (extractStridedSlice ⟨3, ![B, 2, 1]⟩ ![0, 0, k] M hs) hc (ix2 r j) = M (ix3 r j kk) := by
  refine (shapeCast_apply _ hc (ix2 r j) (ix3 r j (0 : Fin 1)) ?_).trans ?_
  · rw [Shape.rowMajor_val_three, Shape.rowMajor_val_two]
    show (r.val * 2 + j.val) * 1 + 0 = r.val * 2 + j.val
    omega
  · refine extractStridedSlice_apply _ _ hs _ _ (fun a => ?_)
    match a with
    | ⟨0, _⟩ => show r.val = 0 + r.val; omega
    | ⟨1, _⟩ => show j.val = 0 + j.val; omega
    | ⟨2, _⟩ => show kk.val = k + 0; omega

/-- Row `j` of every row's matrix, cut as `[B, 1, 2]` and flattened to `[B, 2]`. -/
theorem matRow_apply (j : Nat) (M : (⟨3, ![B, 2, 2]⟩ : Shape).Idx → α)
    (hs : (⟨3, ![B, 2, 2]⟩ : Shape).Slices ![0, j, 0] ⟨3, ![B, 1, 2]⟩)
    (hc : (⟨3, ![B, 1, 2]⟩ : Shape).ShapeCasts ⟨2, ![B, 2]⟩) (r : Fin B) (jj k : Fin 2) (hjj : jj.val = j) :
    shapeCast ⟨2, ![B, 2]⟩ (extractStridedSlice ⟨3, ![B, 1, 2]⟩ ![0, j, 0] M hs) hc (ix2 r k) = M (ix3 r jj k) := by
  refine (shapeCast_apply _ hc (ix2 r k) (ix3 r (0 : Fin 1) k) ?_).trans ?_
  · rw [Shape.rowMajor_val_three, Shape.rowMajor_val_two]
    show (r.val * 1 + 0) * 2 + k.val = r.val * 2 + k.val
    omega
  · refine extractStridedSlice_apply _ _ hs _ _ (fun a => ?_)
    match a with
    | ⟨0, _⟩ => show r.val = 0 + r.val; omega
    | ⟨1, _⟩ => show jj.val = j + 0; omega
    | ⟨2, _⟩ => show k.val = 0 + k.val; omega

/-- FOUR VECTORS AS A STACK OF 2×2 MATRICES: each pair of vectors set side by side as columns, each pair re-laid as a
    matrix row, the two rows stacked.  At `(r, j, k)` the result is vector `(j, k)`'s entry `r`. -/
theorem matrix_apply (a00 a01 a10 a11 : (⟨1, ![B]⟩ : Shape).Idx → α)
    (hb1 : (⟨1, ![B]⟩ : Shape).BroadcastsInDim ⟨2, ![B, 1]⟩ ![0])
    (hc2 : Shape.Concatenates [(⟨2, ![B, 1]⟩ : Shape), ⟨2, ![B, 1]⟩] ⟨2, ![B, 2]⟩ 1)
    (hb2 : (⟨2, ![B, 2]⟩ : Shape).BroadcastsInDim ⟨3, ![B, 1, 2]⟩ ![0, 2])
    (hc3 : Shape.Concatenates [(⟨3, ![B, 1, 2]⟩ : Shape), ⟨3, ![B, 1, 2]⟩] ⟨3, ![B, 2, 2]⟩ 1)
    (r : Fin B) (j k : Fin 2) :
    concatenate ⟨3, ![B, 2, 2]⟩ 1
      [⟨⟨3, ![B, 1, 2]⟩, broadcastInDim ⟨3, ![B, 1, 2]⟩ ![0, 2] hb2
          (concatenate ⟨2, ![B, 2]⟩ 1 [⟨⟨2, ![B, 1]⟩, broadcastInDim ⟨2, ![B, 1]⟩ ![0] hb1 a00⟩,
            ⟨⟨2, ![B, 1]⟩, broadcastInDim ⟨2, ![B, 1]⟩ ![0] hb1 a01⟩] hc2)⟩,
       ⟨⟨3, ![B, 1, 2]⟩, broadcastInDim ⟨3, ![B, 1, 2]⟩ ![0, 2] hb2
          (concatenate ⟨2, ![B, 2]⟩ 1 [⟨⟨2, ![B, 1]⟩, broadcastInDim ⟨2, ![B, 1]⟩ ![0] hb1 a10⟩,
            ⟨⟨2, ![B, 1]⟩, broadcastInDim ⟨2, ![B, 1]⟩ ![0] hb1 a11⟩] hc2)⟩] hc3 (ix3 r j k)
      = (![![a00 (ix1 r), a01 (ix1 r)], ![a10 (ix1 r), a11 (ix1 r)]] : Fin 2 → Fin 2 → α) j k := by
  match j, k with
  | ⟨0, _⟩, ⟨0, _⟩ =>
    exact (rows_apply_zero _ _ hc3 r 0).trans ((bcastRow_apply _ hb2 r 0).trans
      ((pair_apply_zero _ _ hc2 r).trans (bcastColumn_apply a00 hb1 r)))
  | ⟨0, _⟩, ⟨1, _⟩ =>
    exact (rows_apply_zero _ _ hc3 r 1).trans ((bcastRow_apply _ hb2 r 1).trans
      ((pair_apply_one _ _ hc2 r).trans (bcastColumn_apply a01 hb1 r)))
  | ⟨1, _⟩, ⟨0, _⟩ =>
    exact (rows_apply_one _ _ hc3 r 0).trans ((bcastRow_apply _ hb2 r 0).trans
      ((pair_apply_zero _ _ hc2 r).trans (bcastColumn_apply a10 hb1 r)))
  | ⟨1, _⟩, ⟨1, _⟩ =>
    exact (rows_apply_one _ _ hc3 r 1).trans ((bcastRow_apply _ hb2 r 1).trans
      ((pair_apply_one _ _ hc2 r).trans (bcastColumn_apply a11 hb1 r)))

end Cert.RowLayout
-- ==== Proof.TwoQubit.lean ====
/-
  The per-sample function of the two-qubit layer, on the extended reals at the exact reading.

  A sample has two data angles `x0 x1` and four trainable angles `p0 … p3`.  Qubit 0 is rotated by `a = x0 + p0`, qubit 1 by
  `b = x1 + p1`; a controlled flip entangles them; qubit 0 is rotated by `p2` and qubit 1 by `p3`; the result is the pair of
  expectations ⟨Z₀⟩, ⟨Z₁⟩.  Every amplitude is real, so the state is a 2×2 array `s j1 j0` of reals:
  * after the first rotations and the flip it is `[[cb·ca, sb·sa], [sb·ca, cb·sa]]` with `c_ = cos(_/2)`, `s_ = sin(_/2)` (`entangled`);
  * a rotation by `θ` sends a pair of amplitudes `(u, v)` to `(c·u − s·v, s·u + c·v)` (`rotLo`, `rotHi`), on qubit 0 along the
    last index (`rotateLast`) and on qubit 1 along the first (`rotateFirst`);
  * ⟨Z₀⟩ = (f00² + f10²) − (f01² + f11²) and ⟨Z₁⟩ = (f00² + f01²) − (f10² + f11²) (`expectations`).
  The half is the binary32 word of 0.5, the same word wherever it is written, and is never evaluated.

  A rotation written as a product with the matrix `[[c, −s], [s, c]]` spells the same pair: `u·c + v·(−s)` and `c·u + (−s)·v`
  are `c·u − s·v` by commutativity and the sign rules alone, which hold at the infinities too — no finiteness is used.
-/
import Idealize.ShloMosaic.PureOps.Ideal
import Idealize.ShloMosaic.Lib.ValueIdx
import Mathlib.Data.EReal.Operations

noncomputable section

namespace Cert.TwoQubit

open Idealize.ShloMosaic Idealize.ShloMosaic.ValueIdx

/-- One half: the binary32 word of 0.5 at the exact reading. -/
def half : EReal := Ideal.ofBits .f32 0x3F000000#32

/-- `cos(θ/2)`. -/
def cosHalf (θ : EReal) : EReal := Ideal.cos (θ * half)
/-- `sin(θ/2)`. -/
def sinHalf (θ : EReal) : EReal := Ideal.sin (θ * half)

/-- The first amplitude of a rotated pair. -/
def rotLo (c s u v : EReal) : EReal := c * u - s * v
/-- The second amplitude of a rotated pair. -/
def rotHi (c s u v : EReal) : EReal := s * u + c * v

/-- The state `s j1 j0` after the rotations by `a` (qubit 0) and `b` (qubit 1) and the controlled flip. -/
def entangled (a b : EReal) : Fin 2 → Fin 2 → EReal :=
  ![![cosHalf b * cosHalf a, sinHalf b * sinHalf a], ![sinHalf b * cosHalf a, cosHalf b * sinHalf a]]

/-- A rotation of qubit 0 with cosine `c` and sine `s` of the half angle: along the last index. -/
def rotateLast (c s : EReal) (st : Fin 2 → Fin 2 → EReal) : Fin 2 → Fin 2 → EReal :=
  ![![rotLo c s (st 0 0) (st 0 1), rotHi c s (st 0 0) (st 0 1)], ![rotLo c s (st 1 0) (st 1 1), rotHi c s (st 1 0) (st 1 1)]]

/-- A rotation of qubit 1 with cosine `c` and sine `s` of the half angle: along the first index. -/
def rotateFirst (c s : EReal) (t : Fin 2 → Fin 2 → EReal) : Fin 2 → Fin 2 → EReal :=
  ![![rotLo c s (t 0 0) (t 1 0), rotLo c s (t 0 1) (t 1 1)], ![rotHi c s (t 0 0) (t 1 0), rotHi c s (t 0 1) (t 1 1)]]

/-- The two expectations of a real state. -/
def expectations (f : Fin 2 → Fin 2 → EReal) : Fin 2 → EReal :=
  ![(f 0 0 * f 0 0 + f 1 0 * f 1 0) - (f 0 1 * f 0 1 + f 1 1 * f 1 1),
    (f 0 0 * f 0 0 + f 0 1 * f 0 1) - (f 1 0 * f 1 0 + f 1 1 * f 1 1)]

/-- The final state of one sample. -/
def finalState (x0 x1 p0 p1 p2 p3 : EReal) : Fin 2 → Fin 2 → EReal :=
  rotateFirst (cosHalf p3) (sinHalf p3) (rotateLast (cosHalf p2) (sinHalf p2) (entangled (x0 + p0) (x1 + p1)))

/-- The layer on one sample. -/
def layer (x0 x1 p0 p1 p2 p3 : EReal) : Fin 2 → EReal := expectations (finalState x0 x1 p0 p1 p2 p3)

/-- THE LAYER ON THE WHOLE BATCH: entry `(r, j)` of the result is expectation `j` of the layer at row `r` of the data
    angles `X` and of the trainable angles `P`. -/
def layerRows (X : (⟨2, ![4194304, 2]⟩ : Shape).Idx → EReal) (P : (⟨2, ![4194304, 4]⟩ : Shape).Idx → EReal) :
    (⟨2, ![4194304, 2]⟩ : Shape).Idx → EReal :=
  fun i => layer (X (ix2 (i 0 : Fin 4194304) (0 : Fin 2))) (X (ix2 (i 0 : Fin 4194304) (1 : Fin 2)))
    (P (ix2 (i 0 : Fin 4194304) (0 : Fin 4))) (P (ix2 (i 0 : Fin 4194304) (1 : Fin 4)))
    (P (ix2 (i 0 : Fin 4194304) (2 : Fin 4))) (P (ix2 (i 0 : Fin 4194304) (3 : Fin 4))) (i 1 : Fin 2)

theorem layerRows_apply (X : (⟨2, ![4194304, 2]⟩ : Shape).Idx → EReal) (P : (⟨2, ![4194304, 4]⟩ : Shape).Idx → EReal)
    (r : Fin 4194304) (j : Fin 2) :
    layerRows X P (ix2 r j) = layer (X (ix2 r (0 : Fin 2))) (X (ix2 r (1 : Fin 2))) (P (ix2 r (0 : Fin 4))) (P (ix2 r (1 : Fin 4)))
      (P (ix2 r (2 : Fin 4))) (P (ix2 r (3 : Fin 4))) j := rfl

/-! ## A rotation as a product with `[[c, −s], [s, c]]` -/

/-- Row 0 of the matrix against a pair on the LEFT of each product: `u·c + v·(−s) = c·u − s·v`. -/
theorem rotLo_of_right (c s u v : EReal) : u * c + v * (-s) = rotLo c s u v := by
  unfold rotLo
  rw [mul_neg, ← sub_eq_add_neg, mul_comm u c, mul_comm v s]

/-- Row 1 of the matrix against a pair on the left: `u·s + v·c = s·u + c·v`. -/
theorem rotHi_of_right (c s u v : EReal) : u * s + v * c = rotHi c s u v := by
  unfold rotHi
  rw [mul_comm u s, mul_comm v c]

/-- Row 0 of the matrix times a pair: `c·u + (−s)·v = c·u − s·v`. -/
theorem rotLo_of_left (c s u v : EReal) : c * u + (-s) * v = rotLo c s u v := by
  unfold rotLo
  rw [neg_mul, ← sub_eq_add_neg]

/-- Row 1 of the matrix times a pair. -/
theorem rotHi_of_left (c s u v : EReal) : s * u + c * v = rotHi c s u v := rfl

/-- The rotation matrix of a half angle with cosine `c` and sine `s`. -/
def rotation (c s : EReal) : Fin 2 → Fin 2 → EReal := ![![c, -s], ![s, c]]

/-- THE TWO MATRIX PRODUCTS ARE THE TWO ROTATIONS: for a state `st`, `R₃ · (st · R₂ᵀ)` entry by entry — each product a
    two-term sum — is the state rotated on qubit 0 by `R₂` and then on qubit 1 by `R₃`. -/
theorem products_eq_rotations (c2 s2 c3 s3 : EReal) (st : Fin 2 → Fin 2 → EReal) (i k : Fin 2) :
    rotation c3 s3 i 0 * (st 0 0 * rotation c2 s2 k 0 + st 0 1 * rotation c2 s2 k 1)
      + rotation c3 s3 i 1 * (st 1 0 * rotation c2 s2 k 0 + st 1 1 * rotation c2 s2 k 1)
      = rotateFirst c3 s3 (rotateLast c2 s2 st) i k := by
  match i, k with
  | ⟨0, _⟩, ⟨0, _⟩ =>
    show c3 * (st 0 0 * c2 + st 0 1 * (-s2)) + (-s3) * (st 1 0 * c2 + st 1 1 * (-s2))
      = rotLo c3 s3 (rotLo c2 s2 (st 0 0) (st 0 1)) (rotLo c2 s2 (st 1 0) (st 1 1))
    rw [rotLo_of_right c2 s2 (st 0 0) (st 0 1), rotLo_of_right c2 s2 (st 1 0) (st 1 1), rotLo_of_left c3 s3]
  | ⟨0, _⟩, ⟨1, _⟩ =>
    show c3 * (st 0 0 * s2 + st 0 1 * c2) + (-s3) * (st 1 0 * s2 + st 1 1 * c2)
      = rotLo c3 s3 (rotHi c2 s2 (st 0 0) (st 0 1)) (rotHi c2 s2 (st 1 0) (st 1 1))
    rw [rotHi_of_right c2 s2 (st 0 0) (st 0 1), rotHi_of_right c2 s2 (st 1 0) (st 1 1), rotLo_of_left c3 s3]
  | ⟨1, _⟩, ⟨0, _⟩ =>
    show s3 * (st 0 0 * c2 + st 0 1 * (-s2)) + c3 * (st 1 0 * c2 + st 1 1 * (-s2))
      = rotHi c3 s3 (rotLo c2 s2 (st 0 0) (st 0 1)) (rotLo c2 s2 (st 1 0) (st 1 1))
    rw [rotLo_of_right c2 s2 (st 0 0) (st 0 1), rotLo_of_right c2 s2 (st 1 0) (st 1 1)]
    rfl
  | ⟨1, _⟩, ⟨1, _⟩ =>
    show s3 * (st 0 0 * s2 + st 0 1 * c2) + c3 * (st 1 0 * s2 + st 1 1 * c2)
      = rotHi c3 s3 (rotHi c2 s2 (st 0 0) (st 0 1)) (rotHi c2 s2 (st 1 0) (st 1 1))
    rw [rotHi_of_right c2 s2 (st 0 0) (st 0 1), rotHi_of_right c2 s2 (st 1 0) (st 1 1)]
    rfl

/-- The host's sums start from zero: with the zero dropped they are the expectations. -/
theorem expectations_of_sums (f : Fin 2 → Fin 2 → EReal) (j : Fin 2) :
    (![(0 + (f 0 0 * f 0 0 + f 1 0 * f 1 0)) - (0 + (f 0 1 * f 0 1 + f 1 1 * f 1 1)),
       (0 + (f 0 0 * f 0 0 + f 0 1 * f 0 1)) - (0 + (f 1 0 * f 1 0 + f 1 1 * f 1 1))] : Fin 2 → EReal) j
      = expectations f j := by
  unfold expectations
  simp only [zero_add]

end Cert.TwoQubit

end
-- ==== Proof.KernelRow.lean ====
/-
  One row of the kernel's block.

  The body loads a block `X` of `[262144, 2]` data angles and a block `P` of `[262144, 4]` trainable angles, cuts their
  columns out as vectors, computes row by row, and stores the two expectation vectors side by side.  Read at row `r`:
  every cut column is the block's entry `(r, k)`, every vector operation acts on row `r` alone, and the stored block's
  entry `(r, j)` is expectation `j` of the layer at `X[r, 0], X[r, 1], P[r, 0], …, P[r, 3]`.  Nothing but the reading of
  the columns is proved; the arithmetic is the specification's own text.
-/
import proofs.«108214_j65481071403005_1_alg».proof.Proof.Gen.KernelIdeal.Skeleton
import proofs.«108214_j65481071403005_1_alg».proof.Proof.LibRowLayout
import proofs.«108214_j65481071403005_1_alg».proof.Proof.TwoQubit
import Idealize.ShloMosaic.Lib.ValueIdx

noncomputable section

namespace Cert.KernelIdeal.Row

open Cert.KernelIdeal Cert.KernelIdeal.Gen Idealize.ShloMosaic Idealize.ShloMosaic.ValueIdx Cert.RowLayout Cert.TwoQubit

variable (X : Vec Ideal S262144x2 .f32) (P : Vec Ideal S262144x4 .f32) (r : Fin 262144)

/-- The third trainable angle of row `r`. -/
theorem angle2_apply : k0_pay2 P (ix1 r) = P (ix2 r (2 : Fin 4)) := by
  unfold k0_pay2
  exact column_apply (B := 262144) (n := 4) 2 P _ _ r (2 : Fin 4) rfl

/-- The fourth trainable angle of row `r`. -/
theorem angle3_apply : k0_pay3 P (ix1 r) = P (ix2 r (3 : Fin 4)) := by
  unfold k0_pay3
  exact column_apply (B := 262144) (n := 4) 3 P _ _ r (3 : Fin 4) rfl

/-- Qubit 0's first angle of row `r`: data plus trainable. -/
theorem angleA_apply : k0_pay4 X P (ix1 r) = X (ix2 r (0 : Fin 2)) + P (ix2 r (0 : Fin 4)) := by
  unfold k0_pay4
  exact congrArg₂ (· + ·) (column_apply (B := 262144) (n := 2) 0 X _ _ r (0 : Fin 2) rfl)
    (column_apply (B := 262144) (n := 4) 0 P _ _ r (0 : Fin 4) rfl)

/-- Qubit 1's first angle of row `r`. -/
theorem angleB_apply : k0_pay5 X P (ix1 r) = X (ix2 r (1 : Fin 2)) + P (ix2 r (1 : Fin 4)) := by
  unfold k0_pay5
  exact congrArg₂ (· + ·) (column_apply (B := 262144) (n := 2) 1 X _ _ r (1 : Fin 2) rfl)
    (column_apply (B := 262144) (n := 4) 1 P _ _ r (1 : Fin 4) rfl)

/-- The state of row `r` after the first rotations and the controlled flip: its four amplitudes. -/
theorem entangled_apply :
    k0_pay10 X P (ix1 r) = entangled (X (ix2 r (0 : Fin 2)) + P (ix2 r (0 : Fin 4))) (X (ix2 r (1 : Fin 2)) + P (ix2 r (1 : Fin 4))) 0 0
    ∧ k0_pay11 X P (ix1 r) = entangled (X (ix2 r (0 : Fin 2)) + P (ix2 r (0 : Fin 4))) (X (ix2 r (1 : Fin 2)) + P (ix2 r (1 : Fin 4))) 0 1
    ∧ k0_pay12 X P (ix1 r) = entangled (X (ix2 r (0 : Fin 2)) + P (ix2 r (0 : Fin 4))) (X (ix2 r (1 : Fin 2)) + P (ix2 r (1 : Fin 4))) 1 0
    ∧ k0_pay13 X P (ix1 r) = entangled (X (ix2 r (0 : Fin 2)) + P (ix2 r (0 : Fin 4))) (X (ix2 r (1 : Fin 2)) + P (ix2 r (1 : Fin 4))) 1 1 := by
  have ca : k0_pay6 X P (ix1 r) = cosHalf (X (ix2 r (0 : Fin 2)) + P (ix2 r (0 : Fin 4))) :=
    (show k0_pay6 X P (ix1 r) = cosHalf (k0_pay4 X P (ix1 r)) from rfl).trans (congrArg cosHalf (angleA_apply X P r))
  have sa : k0_pay7 X P (ix1 r) = sinHalf (X (ix2 r (0 : Fin 2)) + P (ix2 r (0 : Fin 4))) :=
    (show k0_pay7 X P (ix1 r) = sinHalf (k0_pay4 X P (ix1 r)) from rfl).trans (congrArg sinHalf (angleA_apply X P r))
  have cb : k0_pay8 X P (ix1 r) = cosHalf (X (ix2 r (1 : Fin 2)) + P (ix2 r (1 : Fin 4))) :=
    (show k0_pay8 X P (ix1 r) = cosHalf (k0_pay5 X P (ix1 r)) from rfl).trans (congrArg cosHalf (angleB_apply X P r))
  have sb : k0_pay9 X P (ix1 r) = sinHalf (X (ix2 r (1 : Fin 2)) + P (ix2 r (1 : Fin 4))) :=
    (show k0_pay9 X P (ix1 r) = sinHalf (k0_pay5 X P (ix1 r)) from rfl).trans (congrArg sinHalf (angleB_apply X P r))
  refine ⟨?_, ?_, ?_, ?_⟩
  · exact (show k0_pay10 X P (ix1 r) = k0_pay8 X P (ix1 r) * k0_pay6 X P (ix1 r) from rfl).trans (congrArg₂ (· * ·) cb ca)
  · exact (show k0_pay11 X P (ix1 r) = k0_pay9 X P (ix1 r) * k0_pay7 X P (ix1 r) from rfl).trans (congrArg₂ (· * ·) sb sa)
  · exact (show k0_pay12 X P (ix1 r) = k0_pay9 X P (ix1 r) * k0_pay6 X P (ix1 r) from rfl).trans (congrArg₂ (· * ·) sb ca)
  · exact (show k0_pay13 X P (ix1 r) = k0_pay8 X P (ix1 r) * k0_pay7 X P (ix1 r) from rfl).trans (congrArg₂ (· * ·) cb sa)

/-- The cosines and sines of the two last half angles of row `r`. -/
theorem halfAngles_apply :
    k0_pay14 P (ix1 r) = cosHalf (P (ix2 r (2 : Fin 4))) ∧ k0_pay15 P (ix1 r) = sinHalf (P (ix2 r (2 : Fin 4)))
    ∧ k0_pay16 P (ix1 r) = cosHalf (P (ix2 r (3 : Fin 4))) ∧ k0_pay17 P (ix1 r) = sinHalf (P (ix2 r (3 : Fin 4))) :=
  ⟨(show k0_pay14 P (ix1 r) = cosHalf (k0_pay2 P (ix1 r)) from rfl).trans (congrArg cosHalf (angle2_apply P r)),
   (show k0_pay15 P (ix1 r) = sinHalf (k0_pay2 P (ix1 r)) from rfl).trans (congrArg sinHalf (angle2_apply P r)),
   (show k0_pay16 P (ix1 r) = cosHalf (k0_pay3 P (ix1 r)) from rfl).trans (congrArg cosHalf (angle3_apply P r)),
   (show k0_pay17 P (ix1 r) = sinHalf (k0_pay3 P (ix1 r)) from rfl).trans (congrArg sinHalf (angle3_apply P r))⟩

/-- The state the second half of the body starts from, out of the nine vectors the first half hands over: amplitude
    `(0, 0)` after qubit 0's last rotation arrives computed, the other three are computed here. -/
def handed (s00 s01 s10 s11 c2 s2 t00 : EReal) : Fin 2 → Fin 2 → EReal :=
  ![![t00, rotHi c2 s2 s00 s01], ![rotLo c2 s2 s10 s11, rotHi c2 s2 s10 s11]]

variable (v28 v29 v30 v31 v34 v37 v40 v43 v46 : FVec Ideal S262144 .f32)

/-- The stored block's first column at row `r`: the first expectation. -/
theorem stored_apply_zero :
    k0_pay1 v28 v29 v30 v31 v34 v37 v40 v43 v46 (ix2 r (0 : Fin 2))
      = expectations (rotateFirst (v40 (ix1 r)) (v43 (ix1 r))
          (handed (v28 (ix1 r)) (v29 (ix1 r)) (v30 (ix1 r)) (v31 (ix1 r)) (v34 (ix1 r)) (v37 (ix1 r)) (v46 (ix1 r)))) 0 := by
  unfold k0_pay1
  refine (pair_apply_zero _ _ _ r).trans ?_
  refine (castColumn_apply _ _ r).trans ?_
  rfl

/-- The stored block's second column at row `r`: the second expectation. -/
theorem stored_apply_one :
    k0_pay1 v28 v29 v30 v31 v34 v37 v40 v43 v46 (ix2 r (1 : Fin 2))
      = expectations (rotateFirst (v40 (ix1 r)) (v43 (ix1 r))
          (handed (v28 (ix1 r)) (v29 (ix1 r)) (v30 (ix1 r)) (v31 (ix1 r)) (v34 (ix1 r)) (v37 (ix1 r)) (v46 (ix1 r)))) 1 := by
  unfold k0_pay1
  refine (pair_apply_one _ _ _ r).trans ?_
  refine (castColumn_apply _ _ r).trans ?_
  rfl

/-- With the first half's own values handed over, the state is the one rotated on qubit 0. -/
theorem handed_eq (a b p2 : EReal) :
    handed (entangled a b 0 0) (entangled a b 0 1) (entangled a b 1 0) (entangled a b 1 1) (cosHalf p2) (sinHalf p2)
      (rotLo (cosHalf p2) (sinHalf p2) (entangled a b 0 0) (entangled a b 0 1))
      = rotateLast (cosHalf p2) (sinHalf p2) (entangled a b) := rfl

/-- THE BODY'S STORED BLOCK at `(r, j)` is expectation `j` of the layer at row `r`'s six angles. -/
theorem stored_apply (j : Fin 2) :
    k0_pay1 (k0_pay10 X P) (k0_pay11 X P) (k0_pay12 X P) (k0_pay13 X P) (k0_pay14 P) (k0_pay15 P) (k0_pay16 P) (k0_pay17 P)
        (k0_pay18 X P) (ix2 r j)
      = layer (X (ix2 r (0 : Fin 2))) (X (ix2 r (1 : Fin 2))) (P (ix2 r (0 : Fin 4))) (P (ix2 r (1 : Fin 4)))
          (P (ix2 r (2 : Fin 4))) (P (ix2 r (3 : Fin 4))) j := by
  obtain ⟨e00, e01, e10, e11⟩ := entangled_apply X P r
  obtain ⟨hc2, hs2, hc3, hs3⟩ := halfAngles_apply P r
  have t00 : k0_pay18 X P (ix1 r) = rotLo (k0_pay14 P (ix1 r)) (k0_pay15 P (ix1 r)) (k0_pay10 X P (ix1 r)) (k0_pay11 X P (ix1 r)) := rfl
  match j with
  | ⟨0, _⟩ =>
    refine (stored_apply_zero r _ _ _ _ _ _ _ _ _).trans ?_
    rw [t00, e00, e01, e10, e11, hc2, hs2, hc3, hs3, handed_eq]
    rfl
  | ⟨1, _⟩ =>
    refine (stored_apply_one r _ _ _ _ _ _ _ _ _).trans ?_
    rw [t00, e00, e01, e10, e11, hc2, hs2, hc3, hs3, handed_eq]
    rfl

/-- The same at any index of the block, by its two coordinates. -/
theorem stored_apply_idx (y : S262144x2.Idx) :
    k0_pay1 (k0_pay10 X P) (k0_pay11 X P) (k0_pay12 X P) (k0_pay13 X P) (k0_pay14 P) (k0_pay15 P) (k0_pay16 P) (k0_pay17 P)
        (k0_pay18 X P) y
      = layer (X (ix2 (y 0 : Fin 262144) (0 : Fin 2))) (X (ix2 (y 0 : Fin 262144) (1 : Fin 2)))
          (P (ix2 (y 0 : Fin 262144) (0 : Fin 4))) (P (ix2 (y 0 : Fin 262144) (1 : Fin 4)))
          (P (ix2 (y 0 : Fin 262144) (2 : Fin 4))) (P (ix2 (y 0 : Fin 262144) (3 : Fin 4))) (y 1 : Fin 2) :=
  (congrArg (k0_pay1 (k0_pay10 X P) (k0_pay11 X P) (k0_pay12 X P) (k0_pay13 X P) (k0_pay14 P) (k0_pay15 P) (k0_pay16 P)
    (k0_pay17 P) (k0_pay18 X P)) (eq_ix2 y)).trans (stored_apply X P (y 0) (y 1))

end Cert.KernelIdeal.Row

end
-- ==== Proof.KernelArray.lean ====
/-
  From blocks to the whole array.

  The grid has 16 points; point `t` works on rows `262144·t … 262144·t + 262143` of all three arrays (every index map is
  `(t, 0)`), and the 16 row blocks tile the `4194304` rows.  The body's store covers its whole staging block and its
  loads read whole blocks, so what point `t` writes back is the stored block of `KernelRow`; row `r'` of that block is
  row `262144·t + r'` of the argument arrays, hence of the batch function `layerRows`.  Every row lies in exactly the
  block of point `r / 262144`, so after the run the output array IS `layerRows` of the two argument arrays.
-/
import proofs.«108214_j65481071403005_1_alg».proof.Proof.Gen.KernelIdeal.Value
import proofs.«108214_j65481071403005_1_alg».proof.Proof.KernelRow
import proofs.«108214_j65481071403005_1_alg».proof.Proof.TwoQubit
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.TwoQubit
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The staging block after the body: the one store covers it and the loads are whole, so it is the stored value of the
    two loaded blocks. -/
theorem stored_block (X : Vec Ideal S262144x2 .f32) (P : Vec Ideal S262144x4 .f32) :
    out0_2 X P = k0_pay1 (k0_pay10 X P) (k0_pay11 X P) (k0_pay12 X P) (k0_pay13 X P) (k0_pay14 P) (k0_pay15 P)
      (k0_pay16 P) (k0_pay17 P) (k0_pay18 X P) := by
  unfold out0_2
  rw [View.canon_unit_zero zero_offsets]
  simp only [View.ld_unit_zero (S := S262144x2) zero_offsets, View.ld_unit_zero (S := S262144x4) zero_offsets]

/-- The printed index maps, decided over the 16 grid points: all three windows sit at row block `t`, column block 0. -/
theorem index_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 15 :=
  (by decide +kernel : ∀ t : Fin grid0.N, _)

/-- Every row block is some point's. -/
theorem index_onto : ∀ q : Fin 16, ∃ t : Fin cfg0.N, win0_2.index t = ![q.val, 0] :=
  (by decide +kernel : ∀ q : Fin 16, ∃ t : Fin grid0.N, win0_2.index t = ![q.val, 0])

/-- WHAT POINT `t` WRITES BACK is block `t` of the batch function of the argument arrays. -/
theorem flushed_eq (c : Dev nD) (t : Fin cfg0.N) :
    (dats m 0 c).flushed 2 t
      = ((cfg0.win 2).blk t).view.read (Elt Ideal) (layerRows (V m c main_arg0) (V m c main_arg1)) := by
  rw [Value.flushed2, stored_block (iblk m c 0 t) (iblk m c 1 t)]
  obtain ⟨e0, e1, e2, e3, e4, e5⟩ := index_facts t
  funext y
  have hy0 : (y 0).val < 262144 := (y 0).isLt
  have hy1 : (y 1).val < 2 := (y 1).isLt
  refine (Row.stored_apply_idx (iblk m c 0 t) (iblk m c 1 t) y).trans ?_
  show _ = layerRows (V m c main_arg0) (V m c main_arg1) (((cfg0.win 2).blk t).view.emb y)
  have hrow : win0_2.index t (0 : Fin 2) * 262144 + (y 0).val < 4194304 := by omega
  have hout : ((cfg0.win 2).blk t).view.emb y
      = ix2 (⟨win0_2.index t (0 : Fin 2) * 262144 + (y 0).val, hrow⟩ : Fin 4194304) (⟨(y 1).val, hy1⟩ : Fin 2) := by
    funext a; apply Fin.ext
    match a with
    | ⟨0, _⟩ =>
      show win0_2.index t (0 : Fin 2) * 262144 + 1 * (y 0).val = win0_2.index t (0 : Fin 2) * 262144 + (y 0).val
      omega
    | ⟨1, _⟩ => show win0_2.index t (1 : Fin 2) * 2 + 1 * (y 1).val = (y 1).val; omega
  have hx : ∀ k : Fin 2, iblk m c 0 t (ix2 (⟨(y 0).val, hy0⟩ : Fin 262144) k)
      = V m c main_arg0 (ix2 (⟨win0_2.index t (0 : Fin 2) * 262144 + (y 0).val, hrow⟩ : Fin 4194304) k) := fun k => by
    have hk : k.val < 2 := k.isLt
    show V m c main_arg0 (((cfg0.win 0).blk t).view.emb (ix2 (⟨(y 0).val, hy0⟩ : Fin 262144) k)) = _
    refine congrArg (V m c main_arg0) (funext fun a => Fin.ext ?_)
    match a with
    | ⟨0, _⟩ =>
      show win0_0.index t (0 : Fin 2) * 262144 + 1 * (y 0).val = win0_2.index t (0 : Fin 2) * 262144 + (y 0).val
      omega
    | ⟨1, _⟩ => show win0_0.index t (1 : Fin 2) * 2 + 1 * k.val = k.val; omega
  have hp : ∀ k : Fin 4, iblk m c 1 t (ix2 (⟨(y 0).val, hy0⟩ : Fin 262144) k)
      = V m c main_arg1 (ix2 (⟨win0_2.index t (0 : Fin 2) * 262144 + (y 0).val, hrow⟩ : Fin 4194304) k) := fun k => by
    have hk : k.val < 4 := k.isLt
    show V m c main_arg1 (((cfg0.win 1).blk t).view.emb (ix2 (⟨(y 0).val, hy0⟩ : Fin 262144) k)) = _
    refine congrArg (V m c main_arg1) (funext fun a => Fin.ext ?_)
    match a with
    | ⟨0, _⟩ =>
      show win0_1.index t (0 : Fin 2) * 262144 + 1 * (y 0).val = win0_2.index t (0 : Fin 2) * 262144 + (y 0).val
      omega
    | ⟨1, _⟩ => show win0_1.index t (1 : Fin 2) * 4 + 1 * k.val = k.val; omega
  rw [hout, layerRows_apply]
  exact congr (congr (congr (congr (congr (congr (congrArg layer (hx 0)) (hx 1)) (hp 0)) (hp 1)) (hp 2)) (hp 3)) rfl

/-- An index of the array is in point `t`'s block iff each coordinate is in the block's range on its axis. -/
theorem mem_block (t : Fin cfg0.N) (i : S4194304x2.Idx) :
    i ∈ ((cfg0.win 2).blk t).view.set ↔ ∀ a : Fin 2, win0_2.index t a * S262144x2.size a ≤ (i a).val
      ∧ (i a).val < win0_2.index t a * S262144x2.size a + S262144x2.size a := by
  show i ∈ ((View.whole main_v0).slice (win0_2.rect t)).set ↔ _
  rw [View.set_slice_whole, Rect.mem_set_unit]
  exact Iff.rfl

/-- Every index is in the block of the point that owns its row. -/
theorem covered (i : S4194304x2.Idx) :
    ∃ t : Fin cfg0.N, (cfg0.win 2).flush t = true ∧ i ∈ ((cfg0.win 2).blk t).view.set := by
  have hi0 : (i 0).val < 4194304 := (i 0).isLt
  have hi1 : (i 1).val < 2 := (i 1).isLt
  obtain ⟨t, ht⟩ := index_onto ⟨(i 0).val / 262144, by omega⟩
  have q0 : win0_2.index t (0 : Fin 2) = (i 0).val / 262144 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 262144 ≤ (i 0).val ∧ (i 0).val < win0_2.index t (0 : Fin 2) * 262144 + 262144
    omega
  | ⟨1, _⟩ =>
    show win0_2.index t (1 : Fin 2) * 2 ≤ (i 1).val ∧ (i 1).val < win0_2.index t (1 : Fin 2) * 2 + 2
    omega

/-- THE OUTPUT ARRAY after the run is the batch function of the two argument arrays. -/
theorem final (c : Dev nD) :
    (dats m 0 c).arrAt 2 cfg0.N
      = layerRows (m ((c : Thread nD τ).loc main_arg0)) (m ((c : Thread nD τ).loc main_arg1)) :=
  (dats m 0 c).arrAt_eq_of_cover 2 _ (fun t _ => flushed_eq m c t) covered

/-- The kernel's run, read: the result array at the batch function of the arguments, the arguments unchanged. -/
theorem run : θ_run defs (onTc (τ := τ) (main (F := Ideal))) ⟨m, fun _ => 0, ρ⟩ fun r => ∀ c : Dev nD,
      r.2.mem ((c : Thread nD τ).loc main_v0)
        = layerRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceOpsTable.lean ====
/-
  The reference's @main as lists of its host operations: the 120 statements of the printed program, each with its
  wrapper `hlo rfl (StableHlo.…) (fun _ => .ret ⟨⟩)` removed, in order — as one list `ops`, and as eight consecutive
  pieces `opsA … opsH` cut where few buffers are live (after the two angle sums; the four cosines and sines; the
  product state; the flipped state; the first rotation matrix; the second; the squared amplitudes; the rest).
  With them the tuple of facts that every operation touches TensorCore buffers only.  A table: nothing is argued here.
-/
import proofs.«108214_j65481071403005_1_alg».proof.Proof.Gen.ReferenceIdeal
import Idealize.ShloMosaic.Lib.StableHlo.Run

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of @main. -/
abbrev opsA : List (HloOp τ sig (Elt F)) :=
  [ unary main_arg0 main_v0 ((extractStridedSlice S4194304x1 ![0, 0] · slices_S4194304x2_S4194304x1_0_0) : (⟨S4194304x2, .f32⟩ : BufTy).Contents (Elt F) → (⟨S4194304x1, .f32⟩ : BufTy).Contents (Elt F)),
    reshape main_v0 main_v1 rfl shapeCasts_S4194304x1_S4194304,
    unary main_arg1 main_v2 ((extractStridedSlice S4194304x1 ![0, 0] · slices_S4194304x4_S4194304x1_0_0) : (⟨S4194304x4, .f32⟩ : BufTy).Contents (Elt F) → (⟨S4194304x1, .f32⟩ : BufTy).Contents (Elt F)),
    reshape main_v2 main_v3 rfl shapeCasts_S4194304x1_S4194304,
    binary main_v1 main_v3 main_v4 (addf : (⟨S4194304, .f32⟩ : BufTy).Contents (Elt F) → (⟨S4194304, .f32⟩ : BufTy).Contents (Elt F) → (⟨S4194304, .f32⟩ : BufTy).Contents (Elt F)),
    unary main_arg0 main_v5 ((extractStridedSlice S4194304x1 ![0, 1] · slices_S4194304x2_S4194304x1_0_1) : (⟨S4194304x2, .f32⟩ : BufTy).Contents (Elt F) → (⟨S4194304x1, .f32⟩ : BufTy).Contents (Elt F)),
    reshape main_v5 main_v6 rfl shapeCasts_S4194304x1_S4194304,
    unary main_arg1 main_v7 ((extractStridedSlice S4194304x1 ![0, 1] · slices_S4194304x4_S4194304x1_0_1) : (⟨S4194304x4, .f32⟩ : BufTy).Contents (Elt F) → (⟨S4194304x1, .f32⟩ : BufTy).Contents (Elt F)),
    reshape main_v7 main_v8 rfl shapeCasts_S4194304x1_S4194304,
    binary main_v6 main_v8 main_v9 (addf : (⟨S4194304, .f32⟩ : BufTy).Contents (Elt F) → (⟨S4194304, .f32⟩ : BufTy).Contents (Elt F) → (⟨S4194304, .f32⟩ : BufTy).Contents (Elt F)) ]

/-- Operations 11 … 26 of @main. -/
abbrev opsB : List (HloOp τ sig (Elt F)) :=
  [ nullary main_cst (constant S_ .f32 0x3F000000#32),
    unary main_cst main_v10 (broadcastInDim S4194304 ![] bcast_S_S4194304 : (⟨S_, .f32⟩ : BufTy).Contents (Elt F) → (⟨S4194304, .f32⟩ : BufTy).Contents (Elt F)),
    binary main_v4 main_v10 main_v11 (mulf : (⟨S4194304, .f32⟩ : BufTy).Contents (Elt F) → (⟨S4194304, .f32⟩ : BufTy).Contents (Elt F) → (⟨S4194304, .f32⟩ : BufTy).Contents (Elt F)),
    unary main_v11 main_v12 (Host.cos : (⟨S4194304, .f32⟩ : BufTy).Contents (Elt F) → (⟨S4194304, .f32⟩ : BufTy).Contents (Elt F)),
    nullary main_cst_0 (constant S_ .f32 0x3F000000#32),
    unary main_cst_0 main_v13 (broadcastInDim S4194304 ![] bcast_S_S4194304 : (⟨S_, .f32⟩ : BufTy).Contents (Elt F) → (⟨S4194304, .f32⟩ : BufTy).Contents (Elt F)),
    binary main_v4 main_v13 main_v14 (mulf : (⟨S4194304, .f32⟩ : BufTy).Contents (Elt F) → (⟨S4194304, .f32⟩ : BufTy).Contents (Elt F) → (⟨S4194304, .f32⟩ : BufTy).Contents (Elt F)),
    unary main_v14 main_v15 (Host.sin : (⟨S4194304, .f32⟩ : BufTy).Contents (Elt F) → (⟨S4194304, .f32⟩ : BufTy).Contents (Elt F)),
    nullary main_cst_1 (constant S_ .f32 0x3F000000#32),
    unary main_cst_1 main_v16 (broadcastInDim S4194304 ![] bcast_S_S4194304 : (⟨S_, .f32⟩ : BufTy).Contents (Elt F) → (⟨S4194304, .f32⟩ : BufTy).Contents (Elt F)),
    binary main_v9 main_v16 main_v17 (mulf : (⟨S4194304, .f32⟩ : BufTy).Contents (Elt F) → (⟨S4194304, .f32⟩ : BufTy).Contents (Elt F) → (⟨S4194304, .f32⟩ : BufTy).Contents (Elt F)),
    unary main_v17 main_v18 (Host.cos : (⟨S4194304, .f32⟩ : BufTy).Contents (Elt F) → (⟨S4194304, .f32⟩ : BufTy).Contents (Elt F)),
    nullary main_cst_2 (constant S_ .f32 0x3F000000#32),
    unary main_cst_2 main_v19 (broadcastInDim S4194304 ![] bcast_S_S4194304 : (⟨S_, .f32⟩ : BufTy).Contents (Elt F) → (⟨S4194304, .f32⟩ : BufTy).Contents (Elt F)),
    binary main_v9 main_v19 main_v20 (mulf : (⟨S4194304, .f32⟩ : BufTy).Contents (Elt F) → (⟨S4194304, .f32⟩ : BufTy).Contents (Elt F) → (⟨S4194304, .f32⟩ : BufTy).Contents (Elt F)),
    unary main_v20 main_v21 (Host.sin : (⟨S4194304, .f32⟩ : BufTy).Contents (Elt F) → (⟨S4194304, .f32⟩ : BufTy).Contents (Elt F)) ]

/-- Operations 27 … 39 of @main. -/
abbrev opsC : List (HloOp τ sig (Elt F)) :=
  [ binary main_v18 main_v12 main_v22 (mulf : (⟨S4194304, .f32⟩ : BufTy).Contents (Elt F) → (⟨S4194304, .f32⟩ : BufTy).Contents (Elt F) → (⟨S4194304, .f32⟩ : BufTy).Contents (Elt F)),
    binary main_v18 main_v15 main_v23 (mulf : (⟨S4194304, .f32⟩ : BufTy).Contents (Elt F) → (⟨S4194304, .f32⟩ : BufTy).Contents (Elt F) → (⟨S4194304, .f32⟩ : BufTy).Contents (Elt F)),
    unary main_v22 main_v24 (broadcastInDim S4194304x1 ![0] bcast_S4194304_S4194304x1_0 : (⟨S4194304, .f32⟩ : BufTy).Contents (Elt F) → (⟨S4194304x1, .f32⟩ : BufTy).Contents (Elt F)),
    unary main_v23 main_v25 (broadcastInDim S4194304x1 ![0] bcast_S4194304_S4194304x1_0 : (⟨S4194304, .f32⟩ : BufTy).Contents (Elt F) → (⟨S4194304x1, .f32⟩ : BufTy).Contents (Elt F)),
    binary main_v24 main_v25 main_v26 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    binary main_v21 main_v12 main_v27 (mulf : (⟨S4194304, .f32⟩ : BufTy).Contents (Elt F) → (⟨S4194304, .f32⟩ : BufTy).Contents (Elt F) → (⟨S4194304, .f32⟩ : BufTy).Contents (Elt F)),
    binary main_v21 main_v15 main_v28 (mulf : (⟨S4194304, .f32⟩ : BufTy).Contents (Elt F) → (⟨S4194304, .f32⟩ : BufTy).Contents (Elt F) → (⟨S4194304, .f32⟩ : BufTy).Contents (Elt F)),
    unary main_v27 main_v29 (broadcastInDim S4194304x1 ![0] bcast_S4194304_S4194304x1_0 : (⟨S4194304, .f32⟩ : BufTy).Contents (Elt F) → (⟨S4194304x1, .f32⟩ : BufTy).Contents (Elt F)),
    unary main_v28 main_v30 (broadcastInDim S4194304x1 ![0] bcast_S4194304_S4194304x1_0 : (⟨S4194304, .f32⟩ : BufTy).Contents (Elt F) → (⟨S4194304x1, .f32⟩ : BufTy).Contents (Elt F)),
    binary main_v29 main_v30 main_v31 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v26 main_v32 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v31 main_v33 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v32 main_v33 main_v34 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)) ]

/-- Operations 40 … 56 of @main. -/
abbrev opsD : List (HloOp τ sig (Elt F)) :=
  [ unary main_v34 main_v35 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    reshape main_v35 main_v36 rfl shapeCasts_S4194304x1x1_S4194304,
    unary main_v34 main_v37 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    reshape main_v37 main_v38 rfl shapeCasts_S4194304x1x1_S4194304,
    unary main_v36 main_v39 (broadcastInDim S4194304x1 ![0] bcast_S4194304_S4194304x1_0 : (⟨S4194304, .f32⟩ : BufTy).Contents (Elt F) → (⟨S4194304x1, .f32⟩ : BufTy).Contents (Elt F)),
    unary main_v38 main_v40 (broadcastInDim S4194304x1 ![0] bcast_S4194304_S4194304x1_0 : (⟨S4194304, .f32⟩ : BufTy).Contents (Elt F) → (⟨S4194304x1, .f32⟩ : BufTy).Contents (Elt F)),
    binary main_v39 main_v40 main_v41 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v34 main_v42 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    reshape main_v42 main_v43 rfl shapeCasts_S4194304x1x1_S4194304,
    unary main_v34 main_v44 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    reshape main_v44 main_v45 rfl shapeCasts_S4194304x1x1_S4194304,
    unary main_v43 main_v46 (broadcastInDim S4194304x1 ![0] bcast_S4194304_S4194304x1_0 : (⟨S4194304, .f32⟩ : BufTy).Contents (Elt F) → (⟨S4194304x1, .f32⟩ : BufTy).Contents (Elt F)),
    unary main_v45 main_v47 (broadcastInDim S4194304x1 ![0] bcast_S4194304_S4194304x1_0 : (⟨S4194304, .f32⟩ : BufTy).Contents (Elt F) → (⟨S4194304x1, .f32⟩ : BufTy).Contents (Elt F)),
    binary main_v46 main_v47 main_v48 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v41 main_v49 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v48 main_v50 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v49 main_v50 main_v51 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)) ]

/-- Operations 57 … 76 of @main. -/
abbrev opsE : List (HloOp τ sig (Elt F)) :=
  [ unary main_arg1 main_v52 ((extractStridedSlice S4194304x1 ![0, 2] · slices_S4194304x4_S4194304x1_0_2) : (⟨S4194304x4, .f32⟩ : BufTy).Contents (Elt F) → (⟨S4194304x1, .f32⟩ : BufTy).Contents (Elt F)),
    reshape main_v52 main_v53 rfl shapeCasts_S4194304x1_S4194304,
    nullary main_cst_3 (constant S_ .f32 0x3F000000#32),
    unary main_cst_3 main_v54 (broadcastInDim S4194304 ![] bcast_S_S4194304 : (⟨S_, .f32⟩ : BufTy).Contents (Elt F) → (⟨S4194304, .f32⟩ : BufTy).Contents (Elt F)),
    binary main_v53 main_v54 main_v55 (mulf : (⟨S4194304, .f32⟩ : BufTy).Contents (Elt F) → (⟨S4194304, .f32⟩ : BufTy).Contents (Elt F) → (⟨S4194304, .f32⟩ : BufTy).Contents (Elt F)),
    unary main_v55 main_v56 (Host.cos : (⟨S4194304, .f32⟩ : BufTy).Contents (Elt F) → (⟨S4194304, .f32⟩ : BufTy).Contents (Elt F)),
    nullary main_cst_4 (constant S_ .f32 0x3F000000#32),
    unary main_cst_4 main_v57 (broadcastInDim S4194304 ![] bcast_S_S4194304 : (⟨S_, .f32⟩ : BufTy).Contents (Elt F) → (⟨S4194304, .f32⟩ : BufTy).Contents (Elt F)),
    binary main_v53 main_v57 main_v58 (mulf : (⟨S4194304, .f32⟩ : BufTy).Contents (Elt F) → (⟨S4194304, .f32⟩ : BufTy).Contents (Elt F) → (⟨S4194304, .f32⟩ : BufTy).Contents (Elt F)),
    unary main_v58 main_v59 (Host.sin : (⟨S4194304, .f32⟩ : BufTy).Contents (Elt F) → (⟨S4194304, .f32⟩ : BufTy).Contents (Elt F)),
    unary main_v59 main_v60 (Host.negf : (⟨S4194304, .f32⟩ : BufTy).Contents (Elt F) → (⟨S4194304, .f32⟩ : BufTy).Contents (Elt F)),
    unary main_v56 main_v61 (broadcastInDim S4194304x1 ![0] bcast_S4194304_S4194304x1_0 : (⟨S4194304, .f32⟩ : BufTy).Contents (Elt F) → (⟨S4194304x1, .f32⟩ : BufTy).Contents (Elt F)),
    unary main_v60 main_v62 (broadcastInDim S4194304x1 ![0] bcast_S4194304_S4194304x1_0 : (⟨S4194304, .f32⟩ : BufTy).Contents (Elt F) → (⟨S4194304x1, .f32⟩ : BufTy).Contents (Elt F)),
    binary main_v61 main_v62 main_v63 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v59 main_v64 (broadcastInDim S4194304x1 ![0] bcast_S4194304_S4194304x1_0 : (⟨S4194304, .f32⟩ : BufTy).Contents (Elt F) → (⟨S4194304x1, .f32⟩ : BufTy).Contents (Elt F)),
    unary main_v56 main_v65 (broadcastInDim S4194304x1 ![0] bcast_S4194304_S4194304x1_0 : (⟨S4194304, .f32⟩ : BufTy).Contents (Elt F) → (⟨S4194304x1, .f32⟩ : BufTy).Contents (Elt F)),
    binary main_v64 main_v65 main_v66 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v63 main_v67 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v66 main_v68 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v67 main_v68 main_v69 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)) ]

/-- Operations 77 … 96 of @main. -/
abbrev opsF : List (HloOp τ sig (Elt F)) :=
  [ unary main_arg1 main_v70 ((extractStridedSlice S4194304x1 ![0, 3] · slices_S4194304x4_S4194304x1_0_3) : (⟨S4194304x4, .f32⟩ : BufTy).Contents (Elt F) → (⟨S4194304x1, .f32⟩ : BufTy).Contents (Elt F)),
    reshape main_v70 main_v71 rfl shapeCasts_S4194304x1_S4194304,
    nullary main_cst_5 (constant S_ .f32 0x3F000000#32),
    unary main_cst_5 main_v72 (broadcastInDim S4194304 ![] bcast_S_S4194304 : (⟨S_, .f32⟩ : BufTy).Contents (Elt F) → (⟨S4194304, .f32⟩ : BufTy).Contents (Elt F)),
    binary main_v71 main_v72 main_v73 (mulf : (⟨S4194304, .f32⟩ : BufTy).Contents (Elt F) → (⟨S4194304, .f32⟩ : BufTy).Contents (Elt F) → (⟨S4194304, .f32⟩ : BufTy).Contents (Elt F)),
    unary main_v73 main_v74 (Host.cos : (⟨S4194304, .f32⟩ : BufTy).Contents (Elt F) → (⟨S4194304, .f32⟩ : BufTy).Contents (Elt F)),
    nullary main_cst_6 (constant S_ .f32 0x3F000000#32),
    unary main_cst_6 main_v75 (broadcastInDim S4194304 ![] bcast_S_S4194304 : (⟨S_, .f32⟩ : BufTy).Contents (Elt F) → (⟨S4194304, .f32⟩ : BufTy).Contents (Elt F)),
    binary main_v71 main_v75 main_v76 (mulf : (⟨S4194304, .f32⟩ : BufTy).Contents (Elt F) → (⟨S4194304, .f32⟩ : BufTy).Contents (Elt F) → (⟨S4194304, .f32⟩ : BufTy).Contents (Elt F)),
    unary main_v76 main_v77 (Host.sin : (⟨S4194304, .f32⟩ : BufTy).Contents (Elt F) → (⟨S4194304, .f32⟩ : BufTy).Contents (Elt F)),
    unary main_v77 main_v78 (Host.negf : (⟨S4194304, .f32⟩ : BufTy).Contents (Elt F) → (⟨S4194304, .f32⟩ : BufTy).Contents (Elt F)),
    unary main_v74 main_v79 (broadcastInDim S4194304x1 ![0] bcast_S4194304_S4194304x1_0 : (⟨S4194304, .f32⟩ : BufTy).Contents (Elt F) → (⟨S4194304x1, .f32⟩ : BufTy).Contents (Elt F)),
    unary main_v78 main_v80 (broadcastInDim S4194304x1 ![0] bcast_S4194304_S4194304x1_0 : (⟨S4194304, .f32⟩ : BufTy).Contents (Elt F) → (⟨S4194304x1, .f32⟩ : BufTy).Contents (Elt F)),
    binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v77 main_v82 (broadcastInDim S4194304x1 ![0] bcast_S4194304_S4194304x1_0 : (⟨S4194304, .f32⟩ : BufTy).Contents (Elt F) → (⟨S4194304x1, .f32⟩ : BufTy).Contents (Elt F)),
    unary main_v74 main_v83 (broadcastInDim S4194304x1 ![0] bcast_S4194304_S4194304x1_0 : (⟨S4194304, .f32⟩ : BufTy).Contents (Elt F) → (⟨S4194304x1, .f32⟩ : BufTy).Contents (Elt F)),
    binary main_v82 main_v83 main_v84 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v81 main_v85 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v84 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v85 main_v86 main_v87 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)) ]

/-- Operations 97 … 99 of @main. -/
abbrev opsG : List (HloOp τ sig (Elt F)) :=
  [ binary main_v51 main_v69 main_v88 ((fun l r => Host.dotGeneral dot_S4194304x2x2_S4194304x2x2_S4194304x2x2_2_2_1_1_0_0 none l r) : (⟨S4194304x2x2, .f32⟩ : BufTy).Contents (Elt F) → (⟨S4194304x2x2, .f32⟩ : BufTy).Contents (Elt F) → (⟨S4194304x2x2, .f32⟩ : BufTy).Contents (Elt F)),
    binary main_v87 main_v88 main_v89 ((fun l r => Host.dotGeneral dot_S4194304x2x2_S4194304x2x2_S4194304x2x2_2_1_1_2_0_0 none l r) : (⟨S4194304x2x2, .f32⟩ : BufTy).Contents (Elt F) → (⟨S4194304x2x2, .f32⟩ : BufTy).Contents (Elt F) → (⟨S4194304x2x2, .f32⟩ : BufTy).Contents (Elt F)),
    binary main_v89 main_v89 main_v90 (mulf : (⟨S4194304x2x2, .f32⟩ : BufTy).Contents (Elt F) → (⟨S4194304x2x2, .f32⟩ : BufTy).Contents (Elt F) → (⟨S4194304x2x2, .f32⟩ : BufTy).Contents (Elt F)) ]

/-- Operations 100 … 120 of @main. -/
abbrev opsH : List (HloOp τ sig (Elt F)) :=
  [ unary main_v90 main_v91 ((extractStridedSlice S4194304x2x1 ![0, 0, 0] · slices_S4194304x2x2_S4194304x2x1_0_0_0) : (⟨S4194304x2x2, .f32⟩ : BufTy).Contents (Elt F) → (⟨S4194304x2x1, .f32⟩ : BufTy).Contents (Elt F)),
    reshape main_v91 main_v92 rfl shapeCasts_S4194304x2x1_S4194304x2,
    nullary main_cst_7 (constant S_ .f32 0x00000000#32),
    binary main_v92 main_cst_7 main_v93 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    unary main_v90 main_v94 ((extractStridedSlice S4194304x2x1 ![0, 0, 1] · slices_S4194304x2x2_S4194304x2x1_0_0_1) : (⟨S4194304x2x2, .f32⟩ : BufTy).Contents (Elt F) → (⟨S4194304x2x1, .f32⟩ : BufTy).Contents (Elt F)),
    reshape main_v94 main_v95 rfl shapeCasts_S4194304x2x1_S4194304x2,
    nullary main_cst_8 (constant S_ .f32 0x00000000#32),
    binary main_v95 main_cst_8 main_v96 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    binary main_v93 main_v96 main_v97 (subf : (⟨S4194304, .f32⟩ : BufTy).Contents (Elt F) → (⟨S4194304, .f32⟩ : BufTy).Contents (Elt F) → (⟨S4194304, .f32⟩ : BufTy).Contents (Elt F)),
    unary main_v90 main_v98 ((extractStridedSlice S4194304x1x2 ![0, 0, 0] · slices_S4194304x2x2_S4194304x1x2_0_0_0) : (⟨S4194304x2x2, .f32⟩ : BufTy).Contents (Elt F) → (⟨S4194304x1x2, .f32⟩ : BufTy).Contents (Elt F)),
    reshape main_v98 main_v99 rfl shapeCasts_S4194304x1x2_S4194304x2,
    nullary main_cst_9 (constant S_ .f32 0x00000000#32),
    binary main_v99 main_cst_9 main_v100 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    unary main_v90 main_v101 ((extractStridedSlice S4194304x1x2 ![0, 1, 0] · slices_S4194304x2x2_S4194304x1x2_0_1_0) : (⟨S4194304x2x2, .f32⟩ : BufTy).Contents (Elt F) → (⟨S4194304x1x2, .f32⟩ : BufTy).Contents (Elt F)),
    reshape main_v101 main_v102 rfl shapeCasts_S4194304x1x2_S4194304x2,
    nullary main_cst_10 (constant S_ .f32 0x00000000#32),
    binary main_v102 main_cst_10 main_v103 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    binary main_v100 main_v103 main_v104 (subf : (⟨S4194304, .f32⟩ : BufTy).Contents (Elt F) → (⟨S4194304, .f32⟩ : BufTy).Contents (Elt F) → (⟨S4194304, .f32⟩ : BufTy).Contents (Elt F)),
    unary main_v97 main_v105 (broadcastInDim S4194304x1 ![0] bcast_S4194304_S4194304x1_0 : (⟨S4194304, .f32⟩ : BufTy).Contents (Elt F) → (⟨S4194304x1, .f32⟩ : BufTy).Contents (Elt F)),
    unary main_v104 main_v106 (broadcastInDim S4194304x1 ![0] bcast_S4194304_S4194304x1_0 : (⟨S4194304, .f32⟩ : BufTy).Contents (Elt F) → (⟨S4194304x1, .f32⟩ : BufTy).Contents (Elt F)),
    binary main_v105 main_v106 main_v107 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)) ]

/-- @main's 120 operations, in order. -/
abbrev ops : List (HloOp τ sig (Elt F)) :=
  [ unary main_arg0 main_v0 ((extractStridedSlice S4194304x1 ![0, 0] · slices_S4194304x2_S4194304x1_0_0) : (⟨S4194304x2, .f32⟩ : BufTy).Contents (Elt F) → (⟨S4194304x1, .f32⟩ : BufTy).Contents (Elt F)),
    reshape main_v0 main_v1 rfl shapeCasts_S4194304x1_S4194304,
    unary main_arg1 main_v2 ((extractStridedSlice S4194304x1 ![0, 0] · slices_S4194304x4_S4194304x1_0_0) : (⟨S4194304x4, .f32⟩ : BufTy).Contents (Elt F) → (⟨S4194304x1, .f32⟩ : BufTy).Contents (Elt F)),
    reshape main_v2 main_v3 rfl shapeCasts_S4194304x1_S4194304,
    binary main_v1 main_v3 main_v4 (addf : (⟨S4194304, .f32⟩ : BufTy).Contents (Elt F) → (⟨S4194304, .f32⟩ : BufTy).Contents (Elt F) → (⟨S4194304, .f32⟩ : BufTy).Contents (Elt F)),
    unary main_arg0 main_v5 ((extractStridedSlice S4194304x1 ![0, 1] · slices_S4194304x2_S4194304x1_0_1) : (⟨S4194304x2, .f32⟩ : BufTy).Contents (Elt F) → (⟨S4194304x1, .f32⟩ : BufTy).Contents (Elt F)),
    reshape main_v5 main_v6 rfl shapeCasts_S4194304x1_S4194304,
    unary main_arg1 main_v7 ((extractStridedSlice S4194304x1 ![0, 1] · slices_S4194304x4_S4194304x1_0_1) : (⟨S4194304x4, .f32⟩ : BufTy).Contents (Elt F) → (⟨S4194304x1, .f32⟩ : BufTy).Contents (Elt F)),
    reshape main_v7 main_v8 rfl shapeCasts_S4194304x1_S4194304,
    binary main_v6 main_v8 main_v9 (addf : (⟨S4194304, .f32⟩ : BufTy).Contents (Elt F) → (⟨S4194304, .f32⟩ : BufTy).Contents (Elt F) → (⟨S4194304, .f32⟩ : BufTy).Contents (Elt F)),
    nullary main_cst (constant S_ .f32 0x3F000000#32),
    unary main_cst main_v10 (broadcastInDim S4194304 ![] bcast_S_S4194304 : (⟨S_, .f32⟩ : BufTy).Contents (Elt F) → (⟨S4194304, .f32⟩ : BufTy).Contents (Elt F)),
    binary main_v4 main_v10 main_v11 (mulf : (⟨S4194304, .f32⟩ : BufTy).Contents (Elt F) → (⟨S4194304, .f32⟩ : BufTy).Contents (Elt F) → (⟨S4194304, .f32⟩ : BufTy).Contents (Elt F)),
    unary main_v11 main_v12 (Host.cos : (⟨S4194304, .f32⟩ : BufTy).Contents (Elt F) → (⟨S4194304, .f32⟩ : BufTy).Contents (Elt F)),
    nullary main_cst_0 (constant S_ .f32 0x3F000000#32),
    unary main_cst_0 main_v13 (broadcastInDim S4194304 ![] bcast_S_S4194304 : (⟨S_, .f32⟩ : BufTy).Contents (Elt F) → (⟨S4194304, .f32⟩ : BufTy).Contents (Elt F)),
    binary main_v4 main_v13 main_v14 (mulf : (⟨S4194304, .f32⟩ : BufTy).Contents (Elt F) → (⟨S4194304, .f32⟩ : BufTy).Contents (Elt F) → (⟨S4194304, .f32⟩ : BufTy).Contents (Elt F)),
    unary main_v14 main_v15 (Host.sin : (⟨S4194304, .f32⟩ : BufTy).Contents (Elt F) → (⟨S4194304, .f32⟩ : BufTy).Contents (Elt F)),
    nullary main_cst_1 (constant S_ .f32 0x3F000000#32),
    unary main_cst_1 main_v16 (broadcastInDim S4194304 ![] bcast_S_S4194304 : (⟨S_, .f32⟩ : BufTy).Contents (Elt F) → (⟨S4194304, .f32⟩ : BufTy).Contents (Elt F)),
    binary main_v9 main_v16 main_v17 (mulf : (⟨S4194304, .f32⟩ : BufTy).Contents (Elt F) → (⟨S4194304, .f32⟩ : BufTy).Contents (Elt F) → (⟨S4194304, .f32⟩ : BufTy).Contents (Elt F)),
    unary main_v17 main_v18 (Host.cos : (⟨S4194304, .f32⟩ : BufTy).Contents (Elt F) → (⟨S4194304, .f32⟩ : BufTy).Contents (Elt F)),
    nullary main_cst_2 (constant S_ .f32 0x3F000000#32),
    unary main_cst_2 main_v19 (broadcastInDim S4194304 ![] bcast_S_S4194304 : (⟨S_, .f32⟩ : BufTy).Contents (Elt F) → (⟨S4194304, .f32⟩ : BufTy).Contents (Elt F)),
    binary main_v9 main_v19 main_v20 (mulf : (⟨S4194304, .f32⟩ : BufTy).Contents (Elt F) → (⟨S4194304, .f32⟩ : BufTy).Contents (Elt F) → (⟨S4194304, .f32⟩ : BufTy).Contents (Elt F)),
    unary main_v20 main_v21 (Host.sin : (⟨S4194304, .f32⟩ : BufTy).Contents (Elt F) → (⟨S4194304, .f32⟩ : BufTy).Contents (Elt F)),
    binary main_v18 main_v12 main_v22 (mulf : (⟨S4194304, .f32⟩ : BufTy).Contents (Elt F) → (⟨S4194304, .f32⟩ : BufTy).Contents (Elt F) → (⟨S4194304, .f32⟩ : BufTy).Contents (Elt F)),
    binary main_v18 main_v15 main_v23 (mulf : (⟨S4194304, .f32⟩ : BufTy).Contents (Elt F) → (⟨S4194304, .f32⟩ : BufTy).Contents (Elt F) → (⟨S4194304, .f32⟩ : BufTy).Contents (Elt F)),
    unary main_v22 main_v24 (broadcastInDim S4194304x1 ![0] bcast_S4194304_S4194304x1_0 : (⟨S4194304, .f32⟩ : BufTy).Contents (Elt F) → (⟨S4194304x1, .f32⟩ : BufTy).Contents (Elt F)),
    unary main_v23 main_v25 (broadcastInDim S4194304x1 ![0] bcast_S4194304_S4194304x1_0 : (⟨S4194304, .f32⟩ : BufTy).Contents (Elt F) → (⟨S4194304x1, .f32⟩ : BufTy).Contents (Elt F)),
    binary main_v24 main_v25 main_v26 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    binary main_v21 main_v12 main_v27 (mulf : (⟨S4194304, .f32⟩ : BufTy).Contents (Elt F) → (⟨S4194304, .f32⟩ : BufTy).Contents (Elt F) → (⟨S4194304, .f32⟩ : BufTy).Contents (Elt F)),
    binary main_v21 main_v15 main_v28 (mulf : (⟨S4194304, .f32⟩ : BufTy).Contents (Elt F) → (⟨S4194304, .f32⟩ : BufTy).Contents (Elt F) → (⟨S4194304, .f32⟩ : BufTy).Contents (Elt F)),
    unary main_v27 main_v29 (broadcastInDim S4194304x1 ![0] bcast_S4194304_S4194304x1_0 : (⟨S4194304, .f32⟩ : BufTy).Contents (Elt F) → (⟨S4194304x1, .f32⟩ : BufTy).Contents (Elt F)),
    unary main_v28 main_v30 (broadcastInDim S4194304x1 ![0] bcast_S4194304_S4194304x1_0 : (⟨S4194304, .f32⟩ : BufTy).Contents (Elt F) → (⟨S4194304x1, .f32⟩ : BufTy).Contents (Elt F)),
    binary main_v29 main_v30 main_v31 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v26 main_v32 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v31 main_v33 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v32 main_v33 main_v34 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    unary main_v34 main_v35 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    reshape main_v35 main_v36 rfl shapeCasts_S4194304x1x1_S4194304,
    unary main_v34 main_v37 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    reshape main_v37 main_v38 rfl shapeCasts_S4194304x1x1_S4194304,
    unary main_v36 main_v39 (broadcastInDim S4194304x1 ![0] bcast_S4194304_S4194304x1_0 : (⟨S4194304, .f32⟩ : BufTy).Contents (Elt F) → (⟨S4194304x1, .f32⟩ : BufTy).Contents (Elt F)),
    unary main_v38 main_v40 (broadcastInDim S4194304x1 ![0] bcast_S4194304_S4194304x1_0 : (⟨S4194304, .f32⟩ : BufTy).Contents (Elt F) → (⟨S4194304x1, .f32⟩ : BufTy).Contents (Elt F)),
    binary main_v39 main_v40 main_v41 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v34 main_v42 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    reshape main_v42 main_v43 rfl shapeCasts_S4194304x1x1_S4194304,
    unary main_v34 main_v44 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    reshape main_v44 main_v45 rfl shapeCasts_S4194304x1x1_S4194304,
    unary main_v43 main_v46 (broadcastInDim S4194304x1 ![0] bcast_S4194304_S4194304x1_0 : (⟨S4194304, .f32⟩ : BufTy).Contents (Elt F) → (⟨S4194304x1, .f32⟩ : BufTy).Contents (Elt F)),
    unary main_v45 main_v47 (broadcastInDim S4194304x1 ![0] bcast_S4194304_S4194304x1_0 : (⟨S4194304, .f32⟩ : BufTy).Contents (Elt F) → (⟨S4194304x1, .f32⟩ : BufTy).Contents (Elt F)),
    binary main_v46 main_v47 main_v48 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v41 main_v49 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v48 main_v50 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v49 main_v50 main_v51 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    unary main_arg1 main_v52 ((extractStridedSlice S4194304x1 ![0, 2] · slices_S4194304x4_S4194304x1_0_2) : (⟨S4194304x4, .f32⟩ : BufTy).Contents (Elt F) → (⟨S4194304x1, .f32⟩ : BufTy).Contents (Elt F)),
    reshape main_v52 main_v53 rfl shapeCasts_S4194304x1_S4194304,
    nullary main_cst_3 (constant S_ .f32 0x3F000000#32),
    unary main_cst_3 main_v54 (broadcastInDim S4194304 ![] bcast_S_S4194304 : (⟨S_, .f32⟩ : BufTy).Contents (Elt F) → (⟨S4194304, .f32⟩ : BufTy).Contents (Elt F)),
    binary main_v53 main_v54 main_v55 (mulf : (⟨S4194304, .f32⟩ : BufTy).Contents (Elt F) → (⟨S4194304, .f32⟩ : BufTy).Contents (Elt F) → (⟨S4194304, .f32⟩ : BufTy).Contents (Elt F)),
    unary main_v55 main_v56 (Host.cos : (⟨S4194304, .f32⟩ : BufTy).Contents (Elt F) → (⟨S4194304, .f32⟩ : BufTy).Contents (Elt F)),
    nullary main_cst_4 (constant S_ .f32 0x3F000000#32),
    unary main_cst_4 main_v57 (broadcastInDim S4194304 ![] bcast_S_S4194304 : (⟨S_, .f32⟩ : BufTy).Contents (Elt F) → (⟨S4194304, .f32⟩ : BufTy).Contents (Elt F)),
    binary main_v53 main_v57 main_v58 (mulf : (⟨S4194304, .f32⟩ : BufTy).Contents (Elt F) → (⟨S4194304, .f32⟩ : BufTy).Contents (Elt F) → (⟨S4194304, .f32⟩ : BufTy).Contents (Elt F)),
    unary main_v58 main_v59 (Host.sin : (⟨S4194304, .f32⟩ : BufTy).Contents (Elt F) → (⟨S4194304, .f32⟩ : BufTy).Contents (Elt F)),
    unary main_v59 main_v60 (Host.negf : (⟨S4194304, .f32⟩ : BufTy).Contents (Elt F) → (⟨S4194304, .f32⟩ : BufTy).Contents (Elt F)),
    unary main_v56 main_v61 (broadcastInDim S4194304x1 ![0] bcast_S4194304_S4194304x1_0 : (⟨S4194304, .f32⟩ : BufTy).Contents (Elt F) → (⟨S4194304x1, .f32⟩ : BufTy).Contents (Elt F)),
    unary main_v60 main_v62 (broadcastInDim S4194304x1 ![0] bcast_S4194304_S4194304x1_0 : (⟨S4194304, .f32⟩ : BufTy).Contents (Elt F) → (⟨S4194304x1, .f32⟩ : BufTy).Contents (Elt F)),
    binary main_v61 main_v62 main_v63 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v59 main_v64 (broadcastInDim S4194304x1 ![0] bcast_S4194304_S4194304x1_0 : (⟨S4194304, .f32⟩ : BufTy).Contents (Elt F) → (⟨S4194304x1, .f32⟩ : BufTy).Contents (Elt F)),
    unary main_v56 main_v65 (broadcastInDim S4194304x1 ![0] bcast_S4194304_S4194304x1_0 : (⟨S4194304, .f32⟩ : BufTy).Contents (Elt F) → (⟨S4194304x1, .f32⟩ : BufTy).Contents (Elt F)),
    binary main_v64 main_v65 main_v66 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v63 main_v67 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v66 main_v68 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v67 main_v68 main_v69 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    unary main_arg1 main_v70 ((extractStridedSlice S4194304x1 ![0, 3] · slices_S4194304x4_S4194304x1_0_3) : (⟨S4194304x4, .f32⟩ : BufTy).Contents (Elt F) → (⟨S4194304x1, .f32⟩ : BufTy).Contents (Elt F)),
    reshape main_v70 main_v71 rfl shapeCasts_S4194304x1_S4194304,
    nullary main_cst_5 (constant S_ .f32 0x3F000000#32),
    unary main_cst_5 main_v72 (broadcastInDim S4194304 ![] bcast_S_S4194304 : (⟨S_, .f32⟩ : BufTy).Contents (Elt F) → (⟨S4194304, .f32⟩ : BufTy).Contents (Elt F)),
    binary main_v71 main_v72 main_v73 (mulf : (⟨S4194304, .f32⟩ : BufTy).Contents (Elt F) → (⟨S4194304, .f32⟩ : BufTy).Contents (Elt F) → (⟨S4194304, .f32⟩ : BufTy).Contents (Elt F)),
    unary main_v73 main_v74 (Host.cos : (⟨S4194304, .f32⟩ : BufTy).Contents (Elt F) → (⟨S4194304, .f32⟩ : BufTy).Contents (Elt F)),
    nullary main_cst_6 (constant S_ .f32 0x3F000000#32),
    unary main_cst_6 main_v75 (broadcastInDim S4194304 ![] bcast_S_S4194304 : (⟨S_, .f32⟩ : BufTy).Contents (Elt F) → (⟨S4194304, .f32⟩ : BufTy).Contents (Elt F)),
    binary main_v71 main_v75 main_v76 (mulf : (⟨S4194304, .f32⟩ : BufTy).Contents (Elt F) → (⟨S4194304, .f32⟩ : BufTy).Contents (Elt F) → (⟨S4194304, .f32⟩ : BufTy).Contents (Elt F)),
    unary main_v76 main_v77 (Host.sin : (⟨S4194304, .f32⟩ : BufTy).Contents (Elt F) → (⟨S4194304, .f32⟩ : BufTy).Contents (Elt F)),
    unary main_v77 main_v78 (Host.negf : (⟨S4194304, .f32⟩ : BufTy).Contents (Elt F) → (⟨S4194304, .f32⟩ : BufTy).Contents (Elt F)),
    unary main_v74 main_v79 (broadcastInDim S4194304x1 ![0] bcast_S4194304_S4194304x1_0 : (⟨S4194304, .f32⟩ : BufTy).Contents (Elt F) → (⟨S4194304x1, .f32⟩ : BufTy).Contents (Elt F)),
    unary main_v78 main_v80 (broadcastInDim S4194304x1 ![0] bcast_S4194304_S4194304x1_0 : (⟨S4194304, .f32⟩ : BufTy).Contents (Elt F) → (⟨S4194304x1, .f32⟩ : BufTy).Contents (Elt F)),
    binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v77 main_v82 (broadcastInDim S4194304x1 ![0] bcast_S4194304_S4194304x1_0 : (⟨S4194304, .f32⟩ : BufTy).Contents (Elt F) → (⟨S4194304x1, .f32⟩ : BufTy).Contents (Elt F)),
    unary main_v74 main_v83 (broadcastInDim S4194304x1 ![0] bcast_S4194304_S4194304x1_0 : (⟨S4194304, .f32⟩ : BufTy).Contents (Elt F) → (⟨S4194304x1, .f32⟩ : BufTy).Contents (Elt F)),
    binary main_v82 main_v83 main_v84 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v81 main_v85 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v84 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v85 main_v86 main_v87 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    binary main_v51 main_v69 main_v88 ((fun l r => Host.dotGeneral dot_S4194304x2x2_S4194304x2x2_S4194304x2x2_2_2_1_1_0_0 none l r) : (⟨S4194304x2x2, .f32⟩ : BufTy).Contents (Elt F) → (⟨S4194304x2x2, .f32⟩ : BufTy).Contents (Elt F) → (⟨S4194304x2x2, .f32⟩ : BufTy).Contents (Elt F)),
    binary main_v87 main_v88 main_v89 ((fun l r => Host.dotGeneral dot_S4194304x2x2_S4194304x2x2_S4194304x2x2_2_1_1_2_0_0 none l r) : (⟨S4194304x2x2, .f32⟩ : BufTy).Contents (Elt F) → (⟨S4194304x2x2, .f32⟩ : BufTy).Contents (Elt F) → (⟨S4194304x2x2, .f32⟩ : BufTy).Contents (Elt F)),
    binary main_v89 main_v89 main_v90 (mulf : (⟨S4194304x2x2, .f32⟩ : BufTy).Contents (Elt F) → (⟨S4194304x2x2, .f32⟩ : BufTy).Contents (Elt F) → (⟨S4194304x2x2, .f32⟩ : BufTy).Contents (Elt F)),
    unary main_v90 main_v91 ((extractStridedSlice S4194304x2x1 ![0, 0, 0] · slices_S4194304x2x2_S4194304x2x1_0_0_0) : (⟨S4194304x2x2, .f32⟩ : BufTy).Contents (Elt F) → (⟨S4194304x2x1, .f32⟩ : BufTy).Contents (Elt F)),
    reshape main_v91 main_v92 rfl shapeCasts_S4194304x2x1_S4194304x2,
    nullary main_cst_7 (constant S_ .f32 0x00000000#32),
    binary main_v92 main_cst_7 main_v93 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    unary main_v90 main_v94 ((extractStridedSlice S4194304x2x1 ![0, 0, 1] · slices_S4194304x2x2_S4194304x2x1_0_0_1) : (⟨S4194304x2x2, .f32⟩ : BufTy).Contents (Elt F) → (⟨S4194304x2x1, .f32⟩ : BufTy).Contents (Elt F)),
    reshape main_v94 main_v95 rfl shapeCasts_S4194304x2x1_S4194304x2,
    nullary main_cst_8 (constant S_ .f32 0x00000000#32),
    binary main_v95 main_cst_8 main_v96 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    binary main_v93 main_v96 main_v97 (subf : (⟨S4194304, .f32⟩ : BufTy).Contents (Elt F) → (⟨S4194304, .f32⟩ : BufTy).Contents (Elt F) → (⟨S4194304, .f32⟩ : BufTy).Contents (Elt F)),
    unary main_v90 main_v98 ((extractStridedSlice S4194304x1x2 ![0, 0, 0] · slices_S4194304x2x2_S4194304x1x2_0_0_0) : (⟨S4194304x2x2, .f32⟩ : BufTy).Contents (Elt F) → (⟨S4194304x1x2, .f32⟩ : BufTy).Contents (Elt F)),
    reshape main_v98 main_v99 rfl shapeCasts_S4194304x1x2_S4194304x2,
    nullary main_cst_9 (constant S_ .f32 0x00000000#32),
    binary main_v99 main_cst_9 main_v100 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    unary main_v90 main_v101 ((extractStridedSlice S4194304x1x2 ![0, 1, 0] · slices_S4194304x2x2_S4194304x1x2_0_1_0) : (⟨S4194304x2x2, .f32⟩ : BufTy).Contents (Elt F) → (⟨S4194304x1x2, .f32⟩ : BufTy).Contents (Elt F)),
    reshape main_v101 main_v102 rfl shapeCasts_S4194304x1x2_S4194304x2,
    nullary main_cst_10 (constant S_ .f32 0x00000000#32),
    binary main_v102 main_cst_10 main_v103 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    binary main_v100 main_v103 main_v104 (subf : (⟨S4194304, .f32⟩ : BufTy).Contents (Elt F) → (⟨S4194304, .f32⟩ : BufTy).Contents (Elt F) → (⟨S4194304, .f32⟩ : BufTy).Contents (Elt F)),
    unary main_v97 main_v105 (broadcastInDim S4194304x1 ![0] bcast_S4194304_S4194304x1_0 : (⟨S4194304, .f32⟩ : BufTy).Contents (Elt F) → (⟨S4194304x1, .f32⟩ : BufTy).Contents (Elt F)),
    unary main_v104 main_v106 (broadcastInDim S4194304x1 ![0] bcast_S4194304_S4194304x1_0 : (⟨S4194304, .f32⟩ : BufTy).Contents (Elt F) → (⟨S4194304x1, .f32⟩ : BufTy).Contents (Elt F)),
    binary main_v105 main_v106 main_v107 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)) ]

set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., binary_bufs_sub .., unary_bufs_sub .., reshape_bufs_sub .., nullary_bufs_sub .., binary_bufs_sub .., unary_bufs_sub .., reshape_bufs_sub .., nullary_bufs_sub .., binary_bufs_sub .., binary_bufs_sub .., unary_bufs_sub .., reshape_bufs_sub .., nullary_bufs_sub .., binary_bufs_sub .., unary_bufs_sub .., reshape_bufs_sub .., nullary_bufs_sub .., binary_bufs_sub .., binary_bufs_sub .., unary_bufs_sub .., unary_bufs_sub .., binary_bufs_sub ..⟩

end Cert.ReferenceIdeal.Steps

end
-- ==== Proof.ReferenceStages.lean ====
/-
  The reference's computation as named whole-array functions.

  Each definition is one stretch of the array program, written as it is printed, so that the run's result can be stated
  as their composition instead of one inlined term:
  * the six angle columns `xCol0 xCol1 pCol0 … pCol3` (a `[B, 1]` slice flattened to `[B]`), `half` (0.5 broadcast),
    `cosHalfV` / `sinHalfV` (the host's cosine / sine of a vector times `half`);
  * `pairOf a b` (two vectors as the columns of `[B, 2]`), `matrixOf a00 a01 a10 a11` (four vectors as `[B, 2, 2]`);
  * `flipped M` (the controlled flip: entries (0,0), (1,1), (1,0), (0,1) of every matrix re-laid as a matrix),
    `rotationOf θ` (`[[cos, −sin], [sin, cos]]` of the half angles), `rotated st R₂ R₃` (`R₃ · (st · R₂ᵀ)`), `squared`;
  * `expectationsOf M` (column sums and row sums from zero, their differences, as a pair);
  * `result X P`, the whole program from the two argument arrays.
  Generic in the float instance: nothing is evaluated here.
-/
import proofs.«108214_j65481071403005_1_alg».proof.Proof.Gen.ReferenceIdeal

noncomputable section

namespace Cert.ReferenceIdeal.Stages

open Cert.ReferenceIdeal Cert.ReferenceIdeal.Gen Idealize.ShloMosaic

variable {F : FTy → Type} [FloatOps F]

def xCol0 (X : FVec F S4194304x2 .f32) : FVec F S4194304 .f32 :=
  shapeCast S4194304 (extractStridedSlice S4194304x1 ![0, 0] X slices_S4194304x2_S4194304x1_0_0) shapeCasts_S4194304x1_S4194304
def xCol1 (X : FVec F S4194304x2 .f32) : FVec F S4194304 .f32 :=
  shapeCast S4194304 (extractStridedSlice S4194304x1 ![0, 1] X slices_S4194304x2_S4194304x1_0_1) shapeCasts_S4194304x1_S4194304
def pCol0 (P : FVec F S4194304x4 .f32) : FVec F S4194304 .f32 :=
  shapeCast S4194304 (extractStridedSlice S4194304x1 ![0, 0] P slices_S4194304x4_S4194304x1_0_0) shapeCasts_S4194304x1_S4194304
def pCol1 (P : FVec F S4194304x4 .f32) : FVec F S4194304 .f32 :=
  shapeCast S4194304 (extractStridedSlice S4194304x1 ![0, 1] P slices_S4194304x4_S4194304x1_0_1) shapeCasts_S4194304x1_S4194304
def pCol2 (P : FVec F S4194304x4 .f32) : FVec F S4194304 .f32 :=
  shapeCast S4194304 (extractStridedSlice S4194304x1 ![0, 2] P slices_S4194304x4_S4194304x1_0_2) shapeCasts_S4194304x1_S4194304
def pCol3 (P : FVec F S4194304x4 .f32) : FVec F S4194304 .f32 :=
  shapeCast S4194304 (extractStridedSlice S4194304x1 ![0, 3] P slices_S4194304x4_S4194304x1_0_3) shapeCasts_S4194304x1_S4194304

/-- One half on every sample. -/
def half : FVec F S4194304 .f32 := broadcastInDim S4194304 ![] bcast_S_S4194304 (constant S_ .f32 0x3F000000#32)
def cosHalfV (v : FVec F S4194304 .f32) : FVec F S4194304 .f32 := Host.cos (mulf v half)
def sinHalfV (v : FVec F S4194304 .f32) : FVec F S4194304 .f32 := Host.sin (mulf v half)

def asColumn (v : FVec F S4194304 .f32) : FVec F S4194304x1 .f32 := broadcastInDim S4194304x1 ![0] bcast_S4194304_S4194304x1_0 v
def pairOf (a b : FVec F S4194304 .f32) : FVec F S4194304x2 .f32 :=
  concatenate S4194304x2 1 [⟨S4194304x1, asColumn a⟩, ⟨S4194304x1, asColumn b⟩] concatenates_S4194304x1_S4194304x1_S4194304x2_d1
def asRow (p : FVec F S4194304x2 .f32) : FVec F S4194304x1x2 .f32 :=
  broadcastInDim S4194304x1x2 ![0, 2] bcast_S4194304x2_S4194304x1x2_0_2 p
def matrixOf (a00 a01 a10 a11 : FVec F S4194304 .f32) : FVec F S4194304x2x2 .f32 :=
  concatenate S4194304x2x2 1 [⟨S4194304x1x2, asRow (pairOf a00 a01)⟩, ⟨S4194304x1x2, asRow (pairOf a10 a11)⟩]
    concatenates_S4194304x1x2_S4194304x1x2_S4194304x2x2_d1

def entry00 (M : FVec F S4194304x2x2 .f32) : FVec F S4194304 .f32 :=
  shapeCast S4194304 (extractStridedSlice S4194304x1x1 ![0, 0, 0] M slices_S4194304x2x2_S4194304x1x1_0_0_0) shapeCasts_S4194304x1x1_S4194304
def entry11 (M : FVec F S4194304x2x2 .f32) : FVec F S4194304 .f32 :=
  shapeCast S4194304 (extractStridedSlice S4194304x1x1 ![0, 1, 1] M slices_S4194304x2x2_S4194304x1x1_0_1_1) shapeCasts_S4194304x1x1_S4194304
def entry10 (M : FVec F S4194304x2x2 .f32) : FVec F S4194304 .f32 :=
  shapeCast S4194304 (extractStridedSlice S4194304x1x1 ![0, 1, 0] M slices_S4194304x2x2_S4194304x1x1_0_1_0) shapeCasts_S4194304x1x1_S4194304
def entry01 (M : FVec F S4194304x2x2 .f32) : FVec F S4194304 .f32 :=
  shapeCast S4194304 (extractStridedSlice S4194304x1x1 ![0, 0, 1] M slices_S4194304x2x2_S4194304x1x1_0_0_1) shapeCasts_S4194304x1x1_S4194304

/-- The controlled flip of every sample's state. -/
def flipped (M : FVec F S4194304x2x2 .f32) : FVec F S4194304x2x2 .f32 := matrixOf (entry00 M) (entry11 M) (entry10 M) (entry01 M)

/-- Every sample's rotation matrix of the angle vector `θ`. -/
def rotationOf (θ : FVec F S4194304 .f32) : FVec F S4194304x2x2 .f32 :=
  matrixOf (cosHalfV θ) (Host.negf (sinHalfV θ)) (sinHalfV θ) (cosHalfV θ)

/-- `R₃ · (st · R₂ᵀ)`, sample by sample. -/
def rotated (st R2 R3 : FVec F S4194304x2x2 .f32) : FVec F S4194304x2x2 .f32 :=
  Host.dotGeneral dot_S4194304x2x2_S4194304x2x2_S4194304x2x2_2_1_1_2_0_0 none R3 (Host.dotGeneral dot_S4194304x2x2_S4194304x2x2_S4194304x2x2_2_2_1_1_0_0 none st R2)

def squared (M : FVec F S4194304x2x2 .f32) : FVec F S4194304x2x2 .f32 := mulf M M

def colSum0 (M : FVec F S4194304x2x2 .f32) : FVec F S4194304 .f32 :=
  Host.reduceAdd (shapeCast S4194304x2 (extractStridedSlice S4194304x2x1 ![0, 0, 0] M slices_S4194304x2x2_S4194304x2x1_0_0_0) shapeCasts_S4194304x2x1_S4194304x2)
    (constant S_ .f32 0x00000000#32) reducesTo_S4194304x2_S4194304_d1 h_S_
def colSum1 (M : FVec F S4194304x2x2 .f32) : FVec F S4194304 .f32 :=
  Host.reduceAdd (shapeCast S4194304x2 (extractStridedSlice S4194304x2x1 ![0, 0, 1] M slices_S4194304x2x2_S4194304x2x1_0_0_1) shapeCasts_S4194304x2x1_S4194304x2)
    (constant S_ .f32 0x00000000#32) reducesTo_S4194304x2_S4194304_d1 h_S_
def rowSum0 (M : FVec F S4194304x2x2 .f32) : FVec F S4194304 .f32 :=
  Host.reduceAdd (shapeCast S4194304x2 (extractStridedSlice S4194304x1x2 ![0, 0, 0] M slices_S4194304x2x2_S4194304x1x2_0_0_0) shapeCasts_S4194304x1x2_S4194304x2)
    (constant S_ .f32 0x00000000#32) reducesTo_S4194304x2_S4194304_d1 h_S_
def rowSum1 (M : FVec F S4194304x2x2 .f32) : FVec F S4194304 .f32 :=
  Host.reduceAdd (shapeCast S4194304x2 (extractStridedSlice S4194304x1x2 ![0, 1, 0] M slices_S4194304x2x2_S4194304x1x2_0_1_0) shapeCasts_S4194304x1x2_S4194304x2)
    (constant S_ .f32 0x00000000#32) reducesTo_S4194304x2_S4194304_d1 h_S_

/-- The two expectations of every sample from its squared amplitudes. -/
def expectationsOf (M : FVec F S4194304x2x2 .f32) : FVec F S4194304x2 .f32 :=
  pairOf (subf (colSum0 M) (colSum1 M)) (subf (rowSum0 M) (rowSum1 M))

/-- The product state of every sample from the four cosine / sine vectors. -/
def productState (ca sa cb sb : FVec F S4194304 .f32) : FVec F S4194304x2x2 .f32 :=
  matrixOf (mulf cb ca) (mulf cb sa) (mulf sb ca) (mulf sb sa)

/-- THE WHOLE PROGRAM, from the data angles `X` and the trainable angles `P`. -/
def result (X : FVec F S4194304x2 .f32) (P : FVec F S4194304x4 .f32) : FVec F S4194304x2 .f32 :=
  expectationsOf (squared (rotated
    (flipped (productState (cosHalfV (addf (xCol0 X) (pCol0 P))) (sinHalfV (addf (xCol0 X) (pCol0 P)))
      (cosHalfV (addf (xCol1 X) (pCol1 P))) (sinHalfV (addf (xCol1 X) (pCol1 P)))))
    (rotationOf (pCol2 P)) (rotationOf (pCol3 P))))

end Cert.ReferenceIdeal.Stages

end
-- ==== Proof.ReferenceSteps.lean ====
/-
  The reference's run, piece by piece.

  The program is a straight line of 120 host operations in which the product state, the final state and the squared
  amplitudes are each read several times.  The line is cut into eight pieces (Proof/ReferenceOpsTable.lean) and each piece is read over an ARBITRARY valuation
  `W` of the buffers: what the buffers it hands on hold afterwards, as the named stage (Proof/ReferenceStages.lean) of what
  `W` held in the buffers it reads, and that the buffers it only passes on are unchanged.  Folding the eight readings
  gives the result buffer after the whole line as `Stages.result` of the two argument arrays, and the library's theorem
  for a straight line of host operations turns that into the run.
-/
import proofs.«108214_j65481071403005_1_alg».proof.Proof.ReferenceOpsTable
import proofs.«108214_j65481071403005_1_alg».proof.Proof.ReferenceStages
import Idealize.ShloMosaic.Lib.StableHlo.Run

noncomputable section

namespace Cert.ReferenceIdeal.Steps

open Cert.ReferenceIdeal Cert.ReferenceIdeal.Gen Cert.ReferenceIdeal.Stages Idealize.ShloMosaic Idealize.ShloMosaic.TcCoe
open Idealize.SL.Sem Idealize.ShloMosaic.StableHlo

variable {F : FTy → Type} [FloatOps F]

/-- Two lines one after the other: the contents after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The whole line is its eight pieces in order. -/
theorem ops_eq : (ops : List (HloOp τ sig (Elt F))) = opsA ++ (opsB ++ (opsC ++ (opsD ++ (opsE ++ (opsF ++ (opsG ++ opsH)))))) := rfl

/-! ## The pieces, over an arbitrary valuation -/

/-- Two arrays joined along an axis, as a function of the two arrays: by definition the join of the list of the two
    (shape, array) pairs, which is how the program writes it. -/
def join2 {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h

/-- The program's join of two arrays is `join2` of them. -/
theorem join2_fold {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = join2 t a s₁ s₂ h x y := rfl

/-- A buffer's contents after a piece of the line: after an operation its result buffer holds its function of what its
    operand buffers held, and every other buffer what it held (buffers are distinct by their numbers); a join of two
    arrays is `join2` of them.  Followed operation by operation this gives the named stage, up to its definition. -/
macro "read_piece" : tactic =>
  `(tactic| (simp (disch := decide) only [after_cons, after_nil, ↓join2_fold,
      nullary_result', unary_result', binary_result', reshape_result',
      nullary_result_ne', unary_result_ne', binary_result_ne', reshape_result_ne'] <;> rfl))

variable (W : Valuation τ sig (Elt F))

/-- Piece A: the two angle sums. -/
theorem stepA_a : after opsA W (Proc.devRef .tc main_v4)
    = addf (xCol0 (W (Proc.devRef .tc main_arg0))) (pCol0 (W (Proc.devRef .tc main_arg1))) := by
  read_piece
theorem stepA_b : after opsA W (Proc.devRef .tc main_v9)
    = addf (xCol1 (W (Proc.devRef .tc main_arg0))) (pCol1 (W (Proc.devRef .tc main_arg1))) := by
  read_piece

/-- Piece B: the cosines and sines of the two half angles; the angle sums are read, not changed. -/
theorem stepB_ca : after opsB W (Proc.devRef .tc main_v12) = cosHalfV (W (Proc.devRef .tc main_v4)) := by
  read_piece
theorem stepB_sa : after opsB W (Proc.devRef .tc main_v15) = sinHalfV (W (Proc.devRef .tc main_v4)) := by
  read_piece
theorem stepB_cb : after opsB W (Proc.devRef .tc main_v18) = cosHalfV (W (Proc.devRef .tc main_v9)) := by
  read_piece
theorem stepB_sb : after opsB W (Proc.devRef .tc main_v21) = sinHalfV (W (Proc.devRef .tc main_v9)) := by
  read_piece

/-- Piece C: the product state. -/
theorem stepC : after opsC W (Proc.devRef .tc main_v34)
    = productState (W (Proc.devRef .tc main_v12)) (W (Proc.devRef .tc main_v15)) (W (Proc.devRef .tc main_v18))
        (W (Proc.devRef .tc main_v21)) := by
  read_piece

/-- Piece D: the controlled flip. -/
theorem stepD : after opsD W (Proc.devRef .tc main_v51) = flipped (W (Proc.devRef .tc main_v34)) := by
  read_piece

/-- Piece E: the first rotation matrix; the flipped state is passed on. -/
theorem stepE : after opsE W (Proc.devRef .tc main_v69) = rotationOf (pCol2 (W (Proc.devRef .tc main_arg1))) := by
  read_piece
theorem stepE_state : after opsE W (Proc.devRef .tc main_v51) = W (Proc.devRef .tc main_v51) := by
  after_results_simp

/-- Piece F: the second rotation matrix; the flipped state and the first matrix are passed on. -/
theorem stepF : after opsF W (Proc.devRef .tc main_v87) = rotationOf (pCol3 (W (Proc.devRef .tc main_arg1))) := by
  read_piece
theorem stepF_state : after opsF W (Proc.devRef .tc main_v51) = W (Proc.devRef .tc main_v51) := by
  after_results_simp
theorem stepF_first : after opsF W (Proc.devRef .tc main_v69) = W (Proc.devRef .tc main_v69) := by
  after_results_simp

/-- Piece G: the two products and the squares. -/
theorem stepG : after opsG W (Proc.devRef .tc main_v90)
    = squared (rotated (W (Proc.devRef .tc main_v51)) (W (Proc.devRef .tc main_v69)) (W (Proc.devRef .tc main_v87))) := by
  read_piece

/-- Piece H: the sums, the differences and the pair. -/
theorem stepH : after opsH W (Proc.devRef .tc main_v107) = expectationsOf (W (Proc.devRef .tc main_v90)) := by
  read_piece

/-! ## No piece writes an argument -/

theorem keepA_arg0 (W : Valuation τ sig (Elt F)) : after opsA W (Proc.devRef .tc main_arg0) = W (Proc.devRef .tc main_arg0) := by
  after_results_simp
theorem keepA_arg1 (W : Valuation τ sig (Elt F)) : after opsA W (Proc.devRef .tc main_arg1) = W (Proc.devRef .tc main_arg1) := by
  after_results_simp
theorem keepB_arg0 (W : Valuation τ sig (Elt F)) : after opsB W (Proc.devRef .tc main_arg0) = W (Proc.devRef .tc main_arg0) := by
  after_results_simp
theorem keepB_arg1 (W : Valuation τ sig (Elt F)) : after opsB W (Proc.devRef .tc main_arg1) = W (Proc.devRef .tc main_arg1) := by
  after_results_simp
theorem keepC_arg0 (W : Valuation τ sig (Elt F)) : after opsC W (Proc.devRef .tc main_arg0) = W (Proc.devRef .tc main_arg0) := by
  after_results_simp
theorem keepC_arg1 (W : Valuation τ sig (Elt F)) : after opsC W (Proc.devRef .tc main_arg1) = W (Proc.devRef .tc main_arg1) := by
  after_results_simp
theorem keepD_arg0 (W : Valuation τ sig (Elt F)) : after opsD W (Proc.devRef .tc main_arg0) = W (Proc.devRef .tc main_arg0) := by
  after_results_simp
theorem keepD_arg1 (W : Valuation τ sig (Elt F)) : after opsD W (Proc.devRef .tc main_arg1) = W (Proc.devRef .tc main_arg1) := by
  after_results_simp
theorem keepE_arg0 (W : Valuation τ sig (Elt F)) : after opsE W (Proc.devRef .tc main_arg0) = W (Proc.devRef .tc main_arg0) := by
  after_results_simp
theorem keepE_arg1 (W : Valuation τ sig (Elt F)) : after opsE W (Proc.devRef .tc main_arg1) = W (Proc.devRef .tc main_arg1) := by
  after_results_simp
theorem keepF_arg0 (W : Valuation τ sig (Elt F)) : after opsF W (Proc.devRef .tc main_arg0) = W (Proc.devRef .tc main_arg0) := by
  after_results_simp
theorem keepF_arg1 (W : Valuation τ sig (Elt F)) : after opsF W (Proc.devRef .tc main_arg1) = W (Proc.devRef .tc main_arg1) := by
  after_results_simp
theorem keepG_arg0 (W : Valuation τ sig (Elt F)) : after opsG W (Proc.devRef .tc main_arg0) = W (Proc.devRef .tc main_arg0) := by
  after_results_simp
theorem keepG_arg1 (W : Valuation τ sig (Elt F)) : after opsG W (Proc.devRef .tc main_arg1) = W (Proc.devRef .tc main_arg1) := by
  after_results_simp
theorem keepH_arg0 (W : Valuation τ sig (Elt F)) : after opsH W (Proc.devRef .tc main_arg0) = W (Proc.devRef .tc main_arg0) := by
  after_results_simp
theorem keepH_arg1 (W : Valuation τ sig (Elt F)) : after opsH W (Proc.devRef .tc main_arg1) = W (Proc.devRef .tc main_arg1) := by
  after_results_simp

/-! ## The whole line -/

/-- THE RESULT BUFFER after the whole line is `Stages.result` of the two argument arrays. -/
theorem after_result (V : Valuation τ sig (Elt F)) :
    after ops V (Proc.devRef .tc main_v107)
      = result (V (Proc.devRef .tc main_arg0)) (V (Proc.devRef .tc main_arg1)) := by
  rw [ops_eq]
  simp only [after_append]
  rw [stepH, stepG, stepF, stepF_state, stepF_first, stepE, stepE_state, keepE_arg1, stepD, keepD_arg1, stepC, keepC_arg1,
    stepB_ca, stepB_sa, stepB_cb, stepB_sb, keepB_arg1, stepA_a, stepA_b, keepA_arg1]
  rfl

theorem after_arg0 (V : Valuation τ sig (Elt F)) : after ops V (Proc.devRef .tc main_arg0) = V (Proc.devRef .tc main_arg0) := by
  rw [ops_eq]
  simp only [after_append]
  rw [keepH_arg0, keepG_arg0, keepF_arg0, keepE_arg0, keepD_arg0, keepC_arg0, keepB_arg0, keepA_arg0]

theorem after_arg1 (V : Valuation τ sig (Elt F)) : after ops V (Proc.devRef .tc main_arg1) = V (Proc.devRef .tc main_arg1) := by
  rw [ops_eq]
  simp only [after_append]
  rw [keepH_arg1, keepG_arg1, keepF_arg1, keepE_arg1, keepD_arg1, keepC_arg1, keepB_arg1, keepA_arg1]

/-! ## The run -/

set_option maxRecDepth 8192 in
set_option maxHeartbeats 4000000 in
/-- The printed @main is the line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- On every device, for any float values, from any memory with zero counters: every weakly fair execution of @main
    terminates with the result array at `Stages.result` of the two argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v107).trans (after_result _),
      (h c main_arg0).trans (after_arg0 _),
      (h c main_arg1).trans (after_arg1 _)⟩)
    (run_seq scopedRefs_eq scopedSems_eq defs main (fun _ => ops) main_eq (fun _ => ops_sub) m ρ)

end Cert.ReferenceIdeal.Steps

end
-- ==== Proof.LibStackedMatrix.lean ====
/-
  Stacks of small matrices at the exact reading (entries extended reals, every operation the textbook one).

  * The host's sum of a pair: a `[B, 2]` array summed along its second axis from an initial value is, at row `r`,
    the initial value plus the two entries of that row.
  * The product of two stacks, matrix by TRANSPOSED matrix — a `dot_general` over `[G, m, k]` and `[G, n, k]` with batch
    axes 0 and 0 that contracts the LAST axis of both — read at `(g, a, b)` is the sum over `c` of `A[g, a, c] · B[g, b, c]`.
    (The product that contracts axis 2 with axis 1 is the library's `StackMember.dotGeneral_stack_apply`.)
-/
import Idealize.ShloMosaic.Lib.StackMember
import Idealize.ShloMosaic.Lib.IdealHost
import Idealize.ShloMosaic.Lib.ValueIdx
import Idealize.ShloMosaic.PureOps.Ideal.Laws

namespace Cert.RowLayout

open Idealize.ShloMosaic Idealize.ShloMosaic.ValueIdx

/-- The host's sum along the second axis of a `[B, 2]` array, from an initial value: at row `r` the initial value plus
    the row's two entries. -/
theorem pairSum_apply {B : Nat} (x : FVec Ideal ⟨2, ![B, 2]⟩ .f32) (init : (⟨0, ![]⟩ : Shape).Idx → Ideal .f32)
    (h : (⟨2, ![B, 2]⟩ : Shape).ReducesTo [1] ⟨1, ![B]⟩) (hu : 0 < (⟨0, ![]⟩ : Shape).numel) (r : Fin B) :
    Host.reduceAdd x init h hu (ix1 r) = init ix0 + (x (ix2 r (0 : Fin 2)) + x (ix2 r (1 : Fin 2))) := by
  have hR : (⟨2, ![B, 2]⟩ : Shape).Reduces [1] ⟨1, ![B]⟩ := ⟨h.1, Nat.one_pos, h.2⟩
  have e : ∀ k : Fin ((⟨2, ![B, 2]⟩ : Shape).size 1), hR.lift (ix1 r) k = ix2 r (k : Fin 2) := fun k => by
    funext c
    apply Fin.ext
    show hR.liftVal (ix1 r) k.val c = _
    match c with
    | ⟨0, _⟩ => simp [Shape.Reduces.liftVal]
    | ⟨1, _⟩ => simp [Shape.Reduces.liftVal]
  rw [hostReduceAdd_apply, Ideal.hostReduceAdd_single h hR, eq_ix0 (Shape.Idx.first hu)]
  simp only [e]
  show init ix0 + ∑ k : Fin 2, x (ix2 r k) = _
  rw [Fin.sum_univ_two]

/-- The product of two stacks, matrix by transposed matrix, read at an index. `w` is the record's well-formedness,
    which a program states. -/
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (Bm : FVec Ideal ⟨3, ![G, n, k]⟩ φ₂)
    (g : Fin G) (a : Fin m) (b : Fin n) :
    Host.dotGeneral (⟨[2], [2], [1], [1], [0], [0], w⟩ : DotDims _ _ _) prec A Bm (ix3 g a b)
      = ∑ c : Fin k, A (ix3 g a c) * Bm (ix3 g b c) := by
  show FloatOps.dotGeneral _ prec _ A Bm (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.RowLayout
-- ==== Proof.ReferenceRow.lean ====
/-
  One row of the reference's result.

  The reference keeps every sample's state as a 2×2 matrix inside arrays of `[4194304, 2, 2]`: it builds the product
  state from four vectors, permutes its entries for the controlled flip, multiplies by the two rotation matrices
  (`state · R₂ᵀ`, then `R₃ · state`), squares, sums rows and columns from zero, and subtracts (Proof/ReferenceStages.lean).
  Read at sample `r` at the exact reading: each vector is the per-sample scalar of the specification, each matrix of four
  vectors is the 2×2 array of their entries, a product of stacks is the two-term sum of products, and a rotation matrix
  against a pair is the rotated pair (the specification's laws).  So the result's entry `(r, j)` is expectation `j` of the
  layer at row `r` of the arguments, up to the zero the host's sums start from: `Stages.result X P = layerRows X P`.
-/
import proofs.«108214_j65481071403005_1_alg».proof.Proof.ReferenceStages
import proofs.«108214_j65481071403005_1_alg».proof.Proof.LibRowLayout
import proofs.«108214_j65481071403005_1_alg».proof.Proof.LibStackedMatrix
import proofs.«108214_j65481071403005_1_alg».proof.Proof.TwoQubit
import Idealize.ShloMosaic.Lib.IdealHost
import Idealize.ShloMosaic.Lib.StackMember
import Idealize.ShloMosaic.Lib.ValueIdx

noncomputable section

namespace Cert.ReferenceIdeal.Row

open Cert.ReferenceIdeal Cert.ReferenceIdeal.Gen Cert.ReferenceIdeal.Stages Idealize.ShloMosaic
open Idealize.ShloMosaic.ValueIdx Cert.RowLayout Cert.TwoQubit

variable (X : FVec Ideal S4194304x2 .f32) (P : FVec Ideal S4194304x4 .f32) (r : Fin 4194304)

/-! ## The angle columns -/

theorem xCol0_apply : xCol0 X (ix1 r) = X (ix2 r (0 : Fin 2)) := by
  unfold xCol0; exact column_apply (B := 4194304) (n := 2) 0 X _ _ r (0 : Fin 2) rfl
theorem xCol1_apply : xCol1 X (ix1 r) = X (ix2 r (1 : Fin 2)) := by
  unfold xCol1; exact column_apply (B := 4194304) (n := 2) 1 X _ _ r (1 : Fin 2) rfl
theorem pCol0_apply : pCol0 P (ix1 r) = P (ix2 r (0 : Fin 4)) := by
  unfold pCol0; exact column_apply (B := 4194304) (n := 4) 0 P _ _ r (0 : Fin 4) rfl
theorem pCol1_apply : pCol1 P (ix1 r) = P (ix2 r (1 : Fin 4)) := by
  unfold pCol1; exact column_apply (B := 4194304) (n := 4) 1 P _ _ r (1 : Fin 4) rfl
theorem pCol2_apply : pCol2 P (ix1 r) = P (ix2 r (2 : Fin 4)) := by
  unfold pCol2; exact column_apply (B := 4194304) (n := 4) 2 P _ _ r (2 : Fin 4) rfl
theorem pCol3_apply : pCol3 P (ix1 r) = P (ix2 r (3 : Fin 4)) := by
  unfold pCol3; exact column_apply (B := 4194304) (n := 4) 3 P _ _ r (3 : Fin 4) rfl

/-! ## Cosine and sine of a half angle, entry by entry -/

theorem cosHalfV_apply (v : FVec Ideal S4194304 .f32) (i : S4194304.Idx) : cosHalfV v i = cosHalf (v i) := by
  unfold cosHalfV Stages.half
  show Ideal.cos (v i * broadcastInDim S4194304 ![] bcast_S_S4194304 (constant (F := Ideal) S_ .f32 0x3F000000#32) i) = _
  rw [broadcastInDim_scalar_apply]
  rfl

theorem sinHalfV_apply (v : FVec Ideal S4194304 .f32) (i : S4194304.Idx) : sinHalfV v i = sinHalf (v i) := by
  unfold sinHalfV Stages.half
  show Ideal.sin (v i * broadcastInDim S4194304 ![] bcast_S_S4194304 (constant (F := Ideal) S_ .f32 0x3F000000#32) i) = _
  rw [broadcastInDim_scalar_apply]
  rfl

/-! ## Matrices of four vectors -/

theorem matrixOf_apply (a00 a01 a10 a11 : FVec Ideal S4194304 .f32) (j k : Fin 2) :
    matrixOf a00 a01 a10 a11 (ix3 r j k)
      = (![![a00 (ix1 r), a01 (ix1 r)], ![a10 (ix1 r), a11 (ix1 r)]] : Fin 2 → Fin 2 → EReal) j k := by
  unfold matrixOf asRow pairOf asColumn
  exact matrix_apply _ _ _ _ _ _ _ _ r j k

theorem entry00_apply (M : FVec Ideal S4194304x2x2 .f32) : entry00 M (ix1 r) = M (ix3 r (0 : Fin 2) (0 : Fin 2)) := by
  unfold entry00; exact entry_apply (B := 4194304) 0 0 M _ _ r 0 0 rfl rfl
theorem entry11_apply (M : FVec Ideal S4194304x2x2 .f32) : entry11 M (ix1 r) = M (ix3 r (1 : Fin 2) (1 : Fin 2)) := by
  unfold entry11; exact entry_apply (B := 4194304) 1 1 M _ _ r 1 1 rfl rfl
theorem entry10_apply (M : FVec Ideal S4194304x2x2 .f32) : entry10 M (ix1 r) = M (ix3 r (1 : Fin 2) (0 : Fin 2)) := by
  unfold entry10; exact entry_apply (B := 4194304) 1 0 M _ _ r 1 0 rfl rfl
theorem entry01_apply (M : FVec Ideal S4194304x2x2 .f32) : entry01 M (ix1 r) = M (ix3 r (0 : Fin 2) (1 : Fin 2)) := by
  unfold entry01; exact entry_apply (B := 4194304) 0 1 M _ _ r 0 1 rfl rfl

/-- The product state of sample `r`, before the controlled flip: `[[cb·ca, cb·sa], [sb·ca, sb·sa]]`. -/
theorem productState_apply (ca sa cb sb : FVec Ideal S4194304 .f32) (j k : Fin 2) :
    productState ca sa cb sb (ix3 r j k)
      = (![![cb (ix1 r) * ca (ix1 r), cb (ix1 r) * sa (ix1 r)], ![sb (ix1 r) * ca (ix1 r), sb (ix1 r) * sa (ix1 r)]]
          : Fin 2 → Fin 2 → EReal) j k := by
  unfold productState
  exact matrixOf_apply r _ _ _ _ j k

/-- The flipped state of sample `r`: entries (0,0), (1,1), (1,0), (0,1). -/
theorem flipped_apply (M : FVec Ideal S4194304x2x2 .f32) (j k : Fin 2) :
    flipped M (ix3 r j k)
      = (![![M (ix3 r (0 : Fin 2) (0 : Fin 2)), M (ix3 r (1 : Fin 2) (1 : Fin 2))],
            ![M (ix3 r (1 : Fin 2) (0 : Fin 2)), M (ix3 r (0 : Fin 2) (1 : Fin 2))]] : Fin 2 → Fin 2 → EReal) j k := by
  unfold flipped
  rw [matrixOf_apply, entry00_apply, entry11_apply, entry10_apply, entry01_apply]

/-- The rotation matrix of sample `r`. -/
theorem rotationOf_apply (θ : FVec Ideal S4194304 .f32) (j k : Fin 2) :
    rotationOf θ (ix3 r j k) = rotation (cosHalf (θ (ix1 r))) (sinHalf (θ (ix1 r))) j k := by
  unfold rotationOf
  rw [matrixOf_apply]
  show (![![cosHalfV θ (ix1 r), -(sinHalfV θ (ix1 r))], ![sinHalfV θ (ix1 r), cosHalfV θ (ix1 r)]] : Fin 2 → Fin 2 → EReal) j k = _
  rw [cosHalfV_apply, sinHalfV_apply]
  rfl

/-! ## The two contractions -/

/-- The first contraction at `(r, k, i)`: the state's row `k` against the matrix's row `i`. -/
theorem timesTransposed_apply (A M : FVec Ideal S4194304x2x2 .f32) (k i : Fin 2) :
    Host.dotGeneral dot_S4194304x2x2_S4194304x2x2_S4194304x2x2_2_2_1_1_0_0 none A M (ix3 r k i)
      = A (ix3 r k (0 : Fin 2)) * M (ix3 r i (0 : Fin 2)) + A (ix3 r k (1 : Fin 2)) * M (ix3 r i (1 : Fin 2)) := by
  unfold dot_S4194304x2x2_S4194304x2x2_S4194304x2x2_2_2_1_1_0_0
  rw [dotGeneral_stackT_apply, Fin.sum_univ_two]

/-- The second contraction at `(r, i, k)`: the matrix's row `i` against the state's column `k`. -/
theorem times_apply (M A : FVec Ideal S4194304x2x2 .f32) (i k : Fin 2) :
    Host.dotGeneral dot_S4194304x2x2_S4194304x2x2_S4194304x2x2_2_1_1_2_0_0 none M A (ix3 r i k)
      = M (ix3 r i (0 : Fin 2)) * A (ix3 r (0 : Fin 2) k) + M (ix3 r i (1 : Fin 2)) * A (ix3 r (1 : Fin 2) k) := by
  unfold dot_S4194304x2x2_S4194304x2x2_S4194304x2x2_2_1_1_2_0_0
  rw [StackMember.dotGeneral_stack_apply, Fin.sum_univ_two]

/-- `R₃ · (st · R₂ᵀ)` at sample `r`, entry `(i, k)`, as the two two-term sums. -/
theorem rotated_apply (st R2 R3 : FVec Ideal S4194304x2x2 .f32) (i k : Fin 2) :
    rotated st R2 R3 (ix3 r i k)
      = R3 (ix3 r i (0 : Fin 2)) * (st (ix3 r (0 : Fin 2) (0 : Fin 2)) * R2 (ix3 r k (0 : Fin 2))
            + st (ix3 r (0 : Fin 2) (1 : Fin 2)) * R2 (ix3 r k (1 : Fin 2)))
        + R3 (ix3 r i (1 : Fin 2)) * (st (ix3 r (1 : Fin 2) (0 : Fin 2)) * R2 (ix3 r k (0 : Fin 2))
            + st (ix3 r (1 : Fin 2) (1 : Fin 2)) * R2 (ix3 r k (1 : Fin 2))) := by
  unfold rotated
  rw [times_apply, timesTransposed_apply, timesTransposed_apply]

/-! ## The sums and the pair -/

/-- The zero the host's sums start from. -/
theorem zero_apply : constant (F := Ideal) S_ .f32 0x00000000#32 ix0 = 0 := by
  rw [constant_apply]; exact Ideal.ofBits_zero_f32

theorem colSum0_apply (M : FVec Ideal S4194304x2x2 .f32) :
    colSum0 M (ix1 r) = 0 + (M (ix3 r (0 : Fin 2) (0 : Fin 2)) + M (ix3 r (1 : Fin 2) (0 : Fin 2))) := by
  unfold colSum0
  rw [pairSum_apply, zero_apply, matColumn_apply (B := 4194304) 0 M _ _ r 0 0 rfl, matColumn_apply (B := 4194304) 0 M _ _ r 1 0 rfl]
theorem colSum1_apply (M : FVec Ideal S4194304x2x2 .f32) :
    colSum1 M (ix1 r) = 0 + (M (ix3 r (0 : Fin 2) (1 : Fin 2)) + M (ix3 r (1 : Fin 2) (1 : Fin 2))) := by
  unfold colSum1
  rw [pairSum_apply, zero_apply, matColumn_apply (B := 4194304) 1 M _ _ r 0 1 rfl, matColumn_apply (B := 4194304) 1 M _ _ r 1 1 rfl]
theorem rowSum0_apply (M : FVec Ideal S4194304x2x2 .f32) :
    rowSum0 M (ix1 r) = 0 + (M (ix3 r (0 : Fin 2) (0 : Fin 2)) + M (ix3 r (0 : Fin 2) (1 : Fin 2))) := by
  unfold rowSum0
  rw [pairSum_apply, zero_apply, matRow_apply (B := 4194304) 0 M _ _ r 0 0 rfl, matRow_apply (B := 4194304) 0 M _ _ r 0 1 rfl]
theorem rowSum1_apply (M : FVec Ideal S4194304x2x2 .f32) :
    rowSum1 M (ix1 r) = 0 + (M (ix3 r (1 : Fin 2) (0 : Fin 2)) + M (ix3 r (1 : Fin 2) (1 : Fin 2))) := by
  unfold rowSum1
  rw [pairSum_apply, zero_apply, matRow_apply (B := 4194304) 1 M _ _ r 1 0 rfl, matRow_apply (B := 4194304) 1 M _ _ r 1 1 rfl]

/-- The pair of differences at `(r, j)`. -/
theorem expectationsOf_apply (M : FVec Ideal S4194304x2x2 .f32) (j : Fin 2) :
    expectationsOf M (ix2 r j)
      = (![(0 + (M (ix3 r (0 : Fin 2) (0 : Fin 2)) + M (ix3 r (1 : Fin 2) (0 : Fin 2))))
              - (0 + (M (ix3 r (0 : Fin 2) (1 : Fin 2)) + M (ix3 r (1 : Fin 2) (1 : Fin 2)))),
            (0 + (M (ix3 r (0 : Fin 2) (0 : Fin 2)) + M (ix3 r (0 : Fin 2) (1 : Fin 2))))
              - (0 + (M (ix3 r (1 : Fin 2) (0 : Fin 2)) + M (ix3 r (1 : Fin 2) (1 : Fin 2))))] : Fin 2 → EReal) j := by
  unfold expectationsOf pairOf asColumn
  match j with
  | ⟨0, _⟩ =>
    refine (pair_apply_zero _ _ _ r).trans ((bcastColumn_apply _ _ r).trans ?_)
    rw [subf_apply, colSum0_apply, colSum1_apply]
    rfl
  | ⟨1, _⟩ =>
    refine (pair_apply_one _ _ _ r).trans ((bcastColumn_apply _ _ r).trans ?_)
    rw [subf_apply, rowSum0_apply, rowSum1_apply]
    rfl

/-! ## The result -/

/-- THE FINAL STATE of sample `r`: the two contractions of the flipped product state with the two rotation matrices
    are the specification's two rotations. -/
theorem final_apply (i k : Fin 2) :
    rotated
        (flipped (productState (cosHalfV (addf (xCol0 X) (pCol0 P))) (sinHalfV (addf (xCol0 X) (pCol0 P)))
          (cosHalfV (addf (xCol1 X) (pCol1 P))) (sinHalfV (addf (xCol1 X) (pCol1 P)))))
        (rotationOf (pCol2 P)) (rotationOf (pCol3 P)) (ix3 r i k)
      = finalState (X (ix2 r (0 : Fin 2))) (X (ix2 r (1 : Fin 2))) (P (ix2 r (0 : Fin 4))) (P (ix2 r (1 : Fin 4)))
          (P (ix2 r (2 : Fin 4))) (P (ix2 r (3 : Fin 4))) i k := by
  rw [rotated_apply]
  simp only [rotationOf_apply, flipped_apply, productState_apply, cosHalfV_apply, sinHalfV_apply, addf_apply,
    xCol0_apply, xCol1_apply, pCol0_apply, pCol1_apply, pCol2_apply, pCol3_apply]
  exact products_eq_rotations _ _ _ _ _ i k

/-- THE REFERENCE'S RESULT at `(r, j)` is expectation `j` of the layer at row `r` of the arguments. -/
theorem result_apply (j : Fin 2) :
    result X P (ix2 r j)
      = layer (X (ix2 r (0 : Fin 2))) (X (ix2 r (1 : Fin 2))) (P (ix2 r (0 : Fin 4))) (P (ix2 r (1 : Fin 4)))
          (P (ix2 r (2 : Fin 4))) (P (ix2 r (3 : Fin 4))) j := by
  unfold result
  rw [expectationsOf_apply]
  unfold squared
  simp only [mulf_apply, final_apply]
  exact expectations_of_sums _ j

/-- The reference's result array is the batch function of its two arguments. -/
theorem result_eq : result X P = layerRows X P := by
  funext i
  obtain ⟨r, j, rfl⟩ : ∃ (r : Fin 4194304) (j : Fin 2), i = ix2 r j := ⟨i 0, i 1, eq_ix2 i⟩
  rw [layerRows_apply]
  exact result_apply X P r j

end Cert.ReferenceIdeal.Row

end
-- ==== Proof.lean ====
/-
  The two-qubit layer on a batch of 4194304 samples: the tiled kernel against the array program.

  Per sample, with data angles `x0 x1` and trainable angles `p0 … p3`, both programs compute the expectations ⟨Z₀⟩, ⟨Z₁⟩ of
  the state prepared by `RY(x0 + p0)` on qubit 0, `RY(x1 + p1)` on qubit 1, a controlled flip, `RY(p2)` on qubit 0 and
  `RY(p3)` on qubit 1 (Proof/TwoQubit.lean: `layer`, and on the whole batch `layerRows`).

  * The kernel works on 16 blocks of 262144 rows.  In a block it cuts the six angle columns out as vectors, computes row by
    row with `c·u − s·v` and `s·u + c·v` for each rotation, and stores the two expectation vectors side by side.  Its stored
    block at `(r, j)` is `layer` at row `r` (Proof/KernelRow.lean); the blocks tile the array, so the result array is
    `layerRows` of the arguments (Proof/KernelArray.lean, over the generated frame run and its blockwise value leg).
  * The reference keeps every sample's state as a 2×2 matrix in `[4194304, 2, 2]` arrays, permutes its entries for the flip,
    multiplies by the rotation matrices `[[c, −s], [s, c]]` (`state · R₂ᵀ`, then `R₃ · state`), squares, sums rows and
    columns from zero and subtracts.  Its run is read piece by piece as a composition of named stages
    (Proof/ReferenceSteps.lean over Proof/ReferenceStages.lean and the operation lists of Proof/ReferenceOpsTable.lean), and
    that composition is read at a sample (Proof/ReferenceRow.lean, with the layout readings of Proof/LibRowLayout.lean and
    the two products and the pair sum of Proof/LibStackedMatrix.lean): it is `layerRows` again, because a rotation matrix
    against a pair is the rotated pair, by commutativity and the sign rules alone.
  No finiteness of the inputs is used: the laws that join the two sides hold at the infinities too.  The idealization
  rewrote nothing, so `preserves` has no conjunct.  The kernels' frames are the generated ones; the reference's is its run.
-/
import proofs.«108214_j65481071403005_1_alg».proof.Defs
import proofs.«108214_j65481071403005_1_alg».proof.Proof.Gen.Kernel
import proofs.«108214_j65481071403005_1_alg».proof.Proof.Gen.Kernel.Skeleton
import proofs.«108214_j65481071403005_1_alg».proof.Proof.Gen.Kernel.Launch
import proofs.«108214_j65481071403005_1_alg».proof.Proof.Gen.Kernel.Points
import proofs.«108214_j65481071403005_1_alg».proof.Proof.Gen.Kernel.Frame
import proofs.«108214_j65481071403005_1_alg».proof.Proof.Gen.KernelIdeal
import proofs.«108214_j65481071403005_1_alg».proof.Proof.Gen.KernelIdeal.Skeleton
import proofs.«108214_j65481071403005_1_alg».proof.Proof.Gen.KernelIdeal.Launch
import proofs.«108214_j65481071403005_1_alg».proof.Proof.Gen.KernelIdeal.Points
import proofs.«108214_j65481071403005_1_alg».proof.Proof.Gen.KernelIdeal.Frame
import proofs.«108214_j65481071403005_1_alg».proof.Proof.Gen.KernelIdeal.Value
import proofs.«108214_j65481071403005_1_alg».proof.Proof.Gen.ReferenceIdeal
import proofs.«108214_j65481071403005_1_alg».proof.Proof.Gen.Pre_finite_inputs
import proofs.«108214_j65481071403005_1_alg».proof.Proof.KernelArray
import proofs.«108214_j65481071403005_1_alg».proof.Proof.ReferenceSteps
import proofs.«108214_j65481071403005_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Steps.run (F := Ideal) m ρ)

/-- The idealization rewrote no operation. -/
theorem preserves : Cert.preserves_Kernel_KernelIdeal := trivial

/-- Both runs end with the result array at `layerRows` of the argument arrays, which agree. -/
theorem algebraic : Cert.algebraic_KernelIdeal_ReferenceIdeal := by
  intro m ρ m' ρ' _ hagree
  refine ⟨fun c => Cert.TwoQubit.layerRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Steps.run (F := Ideal) m' ρ')
  rw [Cert.ReferenceIdeal.Row.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
